-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_1)) (v1 : (c : Dev Cert.KernelIdeal.nD) → Buf (Elt Ideal) ((c.tc : Thread Cert.KernelIdeal.nD Cert.KernelIdeal.τ).loc Cert.KernelIdeal.main_v3_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_1) = v0 c
          ∧ r.2.mem ((c.tc : Thread Cert.KernelIdeal.nD Cert.KernelIdeal.τ).loc Cert.KernelIdeal.main_v3_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x64 : Shape := ⟨3, ![8, 2048, 64]⟩
abbrev S8x2048x1 : Shape := ⟨3, ![8, 2048, 1]⟩
abbrev S_ : Shape := ⟨0, ![]⟩

class Facts : Prop where
  bcast_S_S8x2048x64 : S_.BroadcastsInDim S8x2048x64 (![] : Fin 0 → Fin S8x2048x64.rank)
  reducesTo_S8x2048x64_S_d0_1_2 : S8x2048x64.ReducesTo [0, 1, 2] S_
  h_S_ : 0 < S_.numel
  bcast_S_S8x2048x1 : S_.BroadcastsInDim S8x2048x1 (![] : Fin 0 → Fin S8x2048x1.rank)
  reducesTo_S8x2048x1_S_d0_1_2 : S8x2048x1.ReducesTo [0, 1, 2] S_

variable [Facts]

def fn_part1 {F : FTy → Type} [FloatOps F] (main_arg3 : IVec S8x2048x1 32) (main_arg4 : IVec S8x2048x1 32) (main_v13 : IVec S_ 1) (main_v15 : IVec S8x2048x1 1) (main_c_5 : IVec S_ 32) : IVec S_ 1 :=
  let main_v16 : IVec S8x2048x1 32 := broadcastInDim S8x2048x1 ![] bcast_S_S8x2048x1 main_c_5
  let main_v17 : IVec S8x2048x1 1 := cmpi .eq main_arg3 main_v16
  let main_v18 : IVec S8x2048x1 1 := ori main_v15 main_v17
  let main_c_6 : IVec S_ 1 := constantI S_ 1 1#1
  let main_v19 : IVec S_ 1 := (fun x v => Host.reduce IntOp.andi x v reducesTo_S8x2048x1_S_d0_1_2 h_S_) main_v18 main_c_6
  let main_v20 : IVec S_ 1 := andi main_v13 main_v19
  let main_c_7 : IVec S_ 32 := constantI S_ 32 0#32
  let main_v21 : IVec S8x2048x1 32 := broadcastInDim S8x2048x1 ![] bcast_S_S8x2048x1 main_c_7
  let main_v22 : IVec S8x2048x1 1 := cmpi .eq main_arg4 main_v21
  let main_c_8 : IVec S_ 32 := constantI S_ 32 1#32
  let main_v23 : IVec S8x2048x1 32 := broadcastInDim S8x2048x1 ![] bcast_S_S8x2048x1 main_c_8
  let main_v24 : IVec S8x2048x1 1 := cmpi .eq main_arg4 main_v23
  let main_v25 : IVec S8x2048x1 1 := ori main_v22 main_v24
  let main_c_9 : IVec S_ 1 := constantI S_ 1 1#1
  let main_v26 : IVec S_ 1 := (fun x v => Host.reduce IntOp.andi x v reducesTo_S8x2048x1_S_d0_1_2 h_S_) main_v25 main_c_9
  let main_v27 : IVec S_ 1 := andi main_v20 main_v26
  main_v27

def fn {F : FTy → Type} [FloatOps F] (main_arg0 : FVec F S8x2048x64 .f32) (main_arg1 : FVec F S8x2048x64 .f32) (main_arg2 : FVec F S8x2048x64 .f32) (main_arg3 : IVec S8x2048x1 32) (main_arg4 : IVec S8x2048x1 32) : IVec S_ 1 :=
  let main_v0 : FVec F S8x2048x64 .f32 := Host.absf main_arg0
  let main_cst : FVec F S_ .f32 := constant S_ .f32 0x7F800000#32
  let main_v1 : FVec F S8x2048x64 .f32 := broadcastInDim S8x2048x64 ![] bcast_S_S8x2048x64 main_cst
  let main_v2 : IVec S8x2048x64 1 := cmpf .olt main_v0 main_v1
  let main_c : IVec S_ 1 := constantI S_ 1 1#1
  let main_v3 : IVec S_ 1 := (fun x v => Host.reduce IntOp.andi x v reducesTo_S8x2048x64_S_d0_1_2 h_S_) main_v2 main_c
  let main_v4 : FVec F S8x2048x64 .f32 := Host.absf main_arg1
  let main_cst_0 : FVec F S_ .f32 := constant S_ .f32 0x7F800000#32
  let main_v5 : FVec F S8x2048x64 .f32 := broadcastInDim S8x2048x64 ![] bcast_S_S8x2048x64 main_cst_0
  let main_v6 : IVec S8x2048x64 1 := cmpf .olt main_v4 main_v5
  let main_c_1 : IVec S_ 1 := constantI S_ 1 1#1
  let main_v7 : IVec S_ 1 := (fun x v => Host.reduce IntOp.andi x v reducesTo_S8x2048x64_S_d0_1_2 h_S_) main_v6 main_c_1
  let main_v8 : IVec S_ 1 := andi main_v3 main_v7
  let main_v9 : FVec F S8x2048x64 .f32 := Host.absf main_arg2
  let main_cst_2 : FVec F S_ .f32 := constant S_ .f32 0x7F800000#32
  let main_v10 : FVec F S8x2048x64 .f32 := broadcastInDim S8x2048x64 ![] bcast_S_S8x2048x64 main_cst_2
  let main_v11 : IVec S8x2048x64 1 := cmpf .olt main_v9 main_v10
  let main_c_3 : IVec S_ 1 := constantI S_ 1 1#1
  let main_v12 : IVec S_ 1 := (fun x v => Host.reduce IntOp.andi x v reducesTo_S8x2048x64_S_d0_1_2 h_S_) main_v11 main_c_3
  let main_v13 : IVec S_ 1 := andi main_v8 main_v12
  let main_c_4 : IVec S_ 32 := constantI S_ 32 0#32
  let main_v14 : IVec S8x2048x1 32 := broadcastInDim S8x2048x1 ![] bcast_S_S8x2048x1 main_c_4
  let main_v15 : IVec S8x2048x1 1 := cmpi .eq main_arg3 main_v14
  let main_c_5 : IVec S_ 32 := constantI S_ 32 1#32
  fn_part1 (F := F) main_arg3 main_arg4 main_v13 main_v15 main_c_5
-- ==== Kernel.lean ====
abbrev S8x2048x64 : Shape := ⟨3, ![8, 2048, 64]⟩
abbrev S8x2048x1 : Shape := ⟨3, ![8, 2048, 1]⟩
abbrev S8x1x2048 : Shape := ⟨3, ![8, 1, 2048]⟩
abbrev S8x2048x2048 : Shape := ⟨3, ![8, 2048, 2048]⟩
abbrev S1x1024x64 : Shape := ⟨3, ![1, 1024, 64]⟩
abbrev S1x2048x64 : Shape := ⟨3, ![1, 2048, 64]⟩
abbrev S1x1024x1 : Shape := ⟨3, ![1, 1024, 1]⟩
abbrev S1x1x2048 : Shape := ⟨3, ![1, 1, 2048]⟩
abbrev S1x1024x2048 : Shape := ⟨3, ![1, 1024, 2048]⟩
abbrev S1024x64 : Shape := ⟨2, ![1024, 64]⟩
abbrev S2048x64 : Shape := ⟨2, ![2048, 64]⟩
abbrev S1024x2048 : Shape := ⟨2, ![1024, 2048]⟩
abbrev S1024x1 : Shape := ⟨2, ![1024, 1]⟩
abbrev S1x2048 : Shape := ⟨2, ![1, 2048]⟩
abbrev S1024 : Shape := ⟨1, ![1024]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x1, .i32⟩
  | .hbm, ⟨4, _⟩ => ⟨S8x2048x1, .i32⟩
  | .hbm, ⟨5, _⟩ => ⟨S8x2048x1, .f32⟩
  | .hbm, ⟨6, _⟩ => ⟨S8x1x2048, .i32⟩
  | .hbm, ⟨7, _⟩ => ⟨S8x1x2048, .f32⟩
  | .hbm, ⟨8, _⟩ => ⟨S8x2048x2048, .f32⟩
  | .hbm, ⟨9, _⟩ => ⟨S8x2048x64, .f32⟩
  | .local _ .vmem, ⟨0, _⟩ => ⟨S1x1024x64, .f32⟩
  | .local _ .vmem, ⟨1, _⟩ => ⟨S1x1024x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S1x2048x64, .f32⟩
  | .local _ .vmem, ⟨6, _⟩ => ⟨S1x1024x1, .f32⟩
  | .local _ .vmem, ⟨7, _⟩ => ⟨S1x1024x1, .f32⟩
  | .local _ .vmem, ⟨8, _⟩ => ⟨S1x1x2048, .f32⟩
  | .local _ .vmem, ⟨9, _⟩ => ⟨S1x1x2048, .f32⟩
  | .local _ .vmem, ⟨10, _⟩ => ⟨S1x1024x2048, .f32⟩
  | .local _ .vmem, ⟨11, _⟩ => ⟨S1x1024x2048, .f32⟩
  | .local _ .vmem, ⟨12, _⟩ => ⟨S1x1024x64, .f32⟩
  | .local _ .vmem, ⟨13, _⟩ => ⟨S1x1024x64, .f32⟩
  | _, _ => ⟨S8x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  transposes_S8x2048x1_S8x1x2048_0_2_1 : S8x2048x1.Transposes [0, 2, 1] S8x1x2048
  inb_S1x1024x64_S1x1024x64_0_0_0 : ∀ a, (![0, 0, 0] : Fin 3 → Nat) a + S1x1024x64.size a ≤ S1x1024x64.size a
  h_S1x1024x64 : 0 < S1x1024x64.numel
  shapeCasts_S1x1024x64_S1024x64 : S1x1024x64.ShapeCasts S1024x64
  inb_S1x2048x64_S1x2048x64_0_0_0 : ∀ a, (![0, 0, 0] : Fin 3 → Nat) a + S1x2048x64.size a ≤ S1x2048x64.size a
  h_S1x2048x64 : 0 < S1x2048x64.numel
  shapeCasts_S1x2048x64_S2048x64 : S1x2048x64.ShapeCasts S2048x64
  inb_S1x1024x1_S1x1024x1_0_0_0 : ∀ a, (![0, 0, 0] : Fin 3 → Nat) a + S1x1024x1.size a ≤ S1x1024x1.size a
  h_S1x1024x1 : 0 < S1x1024x1.numel
  shapeCasts_S1x1024x1_S1024x1 : S1x1024x1.ShapeCasts S1024x1
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S1x2048 : S1x1x2048.ShapeCasts S1x2048
  broadcasts_S1024x1_S1024x2048 : S1024x1.Broadcasts S1024x2048
  broadcasts_S1x2048_S1024x2048 : S1x2048.Broadcasts S1024x2048
  reduces_S1024x2048_S1024 : S1024x2048.Reduces [1] S1024
  shapeCasts_S1024_S1024x1 : S1024.ShapeCasts S1024x1
  inb_S1x1024x2048_S1x1024x2048_0_0_0 : ∀ a, (![0, 0, 0] : Fin 3 → Nat) a + S1x1024x2048.size a ≤ S1x1024x2048.size a
  h_S1x1024x2048 : 0 < S1x1024x2048.numel
  shapeCasts_S1x1024x2048_S1024x2048 : S1x1024x2048.ShapeCasts S1024x2048
  shapeCasts_S1024x2048_S1x1024x2048 : S1024x2048.ShapeCasts S1x1024x2048
  bitsLt_bf16_f32 : FTy.bits .bf16 < FTy.bits .f32
  shapeCasts_S1024x64_S1x1024x64 : S1024x64.ShapeCasts S1x1024x64
  dot_S1024x64_S2048x64_S1024x2048_1_1_0_0_n_n_wf : DotDims.WF S1024x64 S2048x64 S1024x2048 [1] [1] [0] [0] [] []
  dot_S1024x2048_S2048x64_S1024x64_1_0_0_1_n_n_wf : DotDims.WF S1024x2048 S2048x64 S1024x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x64.size a ≤ S8x2048x64.size a
  hwx0_0 : ∀ i : grid0.Coords, EltTy.bits .f32 = 32 ∨ (Rect.block (s := S8x2048x64) S1x1024x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x64.size a ≤ S8x2048x64.size a
  hwx0_1 : ∀ i : grid0.Coords, EltTy.bits .f32 = 32 ∨ (Rect.block (s := S8x2048x64) S1x2048x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x64.size a ≤ S8x2048x64.size a
  hwx0_2 : ∀ i : grid0.Coords, EltTy.bits .f32 = 32 ∨ (Rect.block (s := S8x2048x64) S1x2048x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1.size a ≤ S8x2048x1.size a
  hwx0_3 : ∀ i : grid0.Coords, EltTy.bits .f32 = 32 ∨ (Rect.block (s := S8x2048x1) S1x1024x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x2048.size a ≤ S8x1x2048.size a
  hwx0_4 : ∀ i : grid0.Coords, EltTy.bits .f32 = 32 ∨ (Rect.block (s := S8x1x2048) S1x1x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024x2048.size a ≤ S8x2048x2048.size a
  hwx0_5 : ∀ i : grid0.Coords, EltTy.bits .f32 = 32 ∨ (Rect.block (s := S8x2048x2048) S1x1024x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1024x64.size a ≤ S8x2048x64.size a
  hwx0_6 : ∀ i : grid0.Coords, EltTy.bits .f32 = 32 ∨ (Rect.block (s := S8x2048x64) S1x1024x64.size (cc0_transform_6 i) (hinb0_6 i)).WholeWords (EltTy.packing .f32)

variable [Facts₀]

def dot_S1024x64_S2048x64_S1024x2048_1_1_0_0_n_n : DotDims S1024x64 S2048x64 S1024x2048 where
  lhsContracting := [1]
  rhsContracting := [1]
  lhsNonContracting := [0]
  rhsNonContracting := [0]
  lhsBatch := []
  rhsBatch := []
  wf := dot_S1024x64_S2048x64_S1024x2048_1_1_0_0_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf

abbrev win0_0 : Pipeline.Window sig grid0 :=
  Pipeline.Window.ofSpec (Memref.whole main_arg0) S1x1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x1x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_0) S1x1024x2048.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3_1) S1x1024x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8x2048x64 : Shape := ⟨3, ![8, 2048, 64]⟩
abbrev S8x2048x1 : Shape := ⟨3, ![8, 2048, 1]⟩
abbrev S8x2048x2048 : Shape := ⟨3, ![8, 2048, 2048]⟩
abbrev S_ : Shape := ⟨0, ![]⟩
abbrev S8x1x2048 : Shape := ⟨3, ![8, 1, 2048]⟩
abbrev S8x2048 : Shape := ⟨2, ![8, 2048]⟩

abbrev nBuf : Space → Nat
  | .hbm => 37
  | .vmem => 0
  | .smem => 0
  | _ => 0

abbrev bufTy : (tb : Table) → Fin (tcTables nBuf tb) → BufTy
  | .hbm, ⟨0, _⟩ => ⟨S8x2048x64, .f32⟩
  | .hbm, ⟨1, _⟩ => ⟨S8x2048x64, .f32⟩
  | .hbm, ⟨2, _⟩ => ⟨S8x2048x64, .f32⟩
  | .hbm, ⟨3, _⟩ => ⟨S8x2048x1, .i32⟩
  | .hbm, ⟨4, _⟩ => ⟨S8x2048x1, .i32⟩
  | .hbm, ⟨5, _⟩ => ⟨S8x2048x2048, .f32⟩
  | .hbm, ⟨6, _⟩ => ⟨S_, .f32⟩
  | .hbm, ⟨7, _⟩ => ⟨S8x2048x2048, .f32⟩
  | .hbm, ⟨8, _⟩ => ⟨S8x2048x2048, .f32⟩
  | .hbm, ⟨9, _⟩ => ⟨S8x1x2048, .i32⟩
  | .hbm, ⟨10, _⟩ => ⟨S8x2048x2048, .i32⟩
  | .hbm, ⟨11, _⟩ => ⟨S8x2048x2048, .i32⟩
  | .hbm, ⟨12, _⟩ => ⟨S8x2048x2048, .i32⟩
  | .hbm, ⟨13, _⟩ => ⟨S8x2048x2048, .f32⟩
  | .hbm, ⟨14, _⟩ => ⟨S_, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S8x2048x2048, .f32⟩
  | .hbm, ⟨21, _⟩ => ⟨S_, .f32⟩
  | .hbm, ⟨22, _⟩ => ⟨S8x2048, .f32⟩
  | .hbm, ⟨23, _⟩ => ⟨S8x2048x1, .f32⟩
  | .hbm, ⟨24, _⟩ => ⟨S_, .f32⟩
  | .hbm, ⟨25, _⟩ => ⟨S8x2048x1, .f32⟩
  | .hbm, ⟨26, _⟩ => ⟨S8x2048x1, .f32⟩
  | .hbm, ⟨27, _⟩ => ⟨S8x2048x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S_, .f32⟩
  | .hbm, ⟨32, _⟩ => ⟨S8x2048, .f32⟩
  | .hbm, ⟨33, _⟩ => ⟨S8x2048x1, .f32⟩
  | .hbm, ⟨34, _⟩ => ⟨S8x2048x2048, .f32⟩
  | .hbm, ⟨35, _⟩ => ⟨S8x2048x2048, .f32⟩
  | .hbm, ⟨36, _⟩ => ⟨S8x2048x64, .f32⟩
  | _, _ => ⟨S8x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  transposes_S8x2048x1_S8x1x2048_0_2_1 : S8x2048x1.Transposes [0, 2, 1] S8x1x2048
  bcast_S8x1x2048_S8x2048x2048_0_1_2 : S8x1x2048.BroadcastsInDim S8x2048x2048 (![0, 1, 2] : Fin 3 → Fin S8x2048x2048.rank)
  bcast_S8x2048x1_S8x2048x2048_0_1_2 : S8x2048x1.BroadcastsInDim S8x2048x2048 (![0, 1, 2] : Fin 3 → Fin S8x2048x2048.rank)
  reducesTo_S8x2048x2048_S8x2048_d2 : S8x2048x2048.ReducesTo [2] S8x2048
  h_S_ : 0 < S_.numel
  bcast_S8x2048_S8x2048x1_0_1 : S8x2048.BroadcastsInDim S8x2048x1 (![0, 1] : Fin 2 → Fin S8x2048x1.rank)
  bcast_S_S8x2048x1 : S_.BroadcastsInDim S8x2048x1 (![] : Fin 0 → Fin S8x2048x1.rank)
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.LibBlockReads.lean ====
/-
  Vector operations of a kernel body read at an index, on the extended reals: a matrix product accumulated into
  zeros as the sum over the contracted coordinate (both operand orders), a sum along the first or the last axis
  of a rank-3 block as a sum over that axis's coordinate, and the re-shapings and broadcasts that put a row
  vector or a matrix of per-row scales beside a block. Nothing here mentions a program.
-/
import Idealize.ShloMosaic.PureOps.Ideal.Laws
import Idealize.ShloMosaic.Lib.ValueIdx
import Idealize.ShloMosaic.Lib.Pipeline.Value

open scoped BigOperators

namespace Cert.Lib.BlockReads

open Idealize.ShloMosaic Idealize.ShloMosaic.ValueIdx

/-! ## Matrix products into a zero accumulator -/

section Matmul
variable {m k n : Nat} {φ₁ φ₂ : FTy}

/-- A product of an m×k by a k×n matrix (contracting the left operand's columns with the right operand's rows),
    accumulated into zeros, is at (a, b) the sum over c of A(a, c) · B(c, b). -/
theorem matmul_zero_rows_apply (d : DotDims ⟨2, ![m, k]⟩ ⟨2, ![k, n]⟩ ⟨2, ![m, n]⟩)
    (hlc : d.lhsContracting = [1]) (hrc : d.rhsContracting = [0]) (hln : d.lhsNonContracting = [0])
    (hrn : d.rhsNonContracting = [1]) (hlb : d.lhsBatch = []) (hrb : d.rhsBatch = [])
    (prec : Option ContractPrecision) (A : FVec Ideal ⟨2, ![m, k]⟩ φ₁) (B : FVec Ideal ⟨2, ![k, n]⟩ φ₂)
    (a : Fin m) (b : Fin n) :
    matmul d prec A B (constant ⟨2, ![m, n]⟩ .f32 0x00000000#32) (ix2 a b) = ∑ c : Fin k, A (ix2 a c) * B (ix2 c b) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [0], [0], [1], [], [], w⟩ : DotDims _ _ _) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A product of an m×k matrix by the TRANSPOSE of an n×k matrix (both operands contracted along their columns),
    accumulated into zeros, is at (a, b) the sum over c of A(a, c) · B(b, c). -/
theorem matmul_zero_cols_apply (d : DotDims ⟨2, ![m, k]⟩ ⟨2, ![n, k]⟩ ⟨2, ![m, n]⟩)
    (hlc : d.lhsContracting = [1]) (hrc : d.rhsContracting = [1]) (hln : d.lhsNonContracting = [0])
    (hrn : d.rhsNonContracting = [0]) (hlb : d.lhsBatch = []) (hrb : d.rhsBatch = [])
    (prec : Option ContractPrecision) (A : FVec Ideal ⟨2, ![m, k]⟩ φ₁) (B : FVec Ideal ⟨2, ![n, k]⟩ φ₂)
    (a : Fin m) (b : Fin n) :
    matmul d prec A B (constant ⟨2, ![m, n]⟩ .f32 0x00000000#32) (ix2 a b) = ∑ c : Fin k, A (ix2 a c) * B (ix2 b c) := by
  obtain ⟨lc, rc, ln, rn, lb, rb, w⟩ := d
  dsimp only at hlc hrc hln hrn hlb hrb
  subst hlc hrc hln hrn hlb hrb
  show FloatOps.matmul _ prec A B _ (ix2 a b) = _
  rw [Ideal.matmul_constant_zero_apply,
    ← Equiv.sum_comp (contrEquiv1 (⟨[1], [1], [0], [0], [], [], w⟩ : DotDims _ _ _) k rfl rfl).symm]
  refine Finset.sum_congr rfl fun c _ => ?_
  have c2 := contrEquiv1_symm_val
    (⟨[1], [1], [0], [0], [], [], w⟩ : DotDims ⟨2, ![m, k]⟩ ⟨2, ![n, k]⟩ ⟨2, ![m, n]⟩) k rfl rfl c
  have l2 : (⟨[1], [1], [0], [0], [], [], w⟩ : DotDims ⟨2, ![m, k]⟩ ⟨2, ![n, k]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [1], [0], [0], [], [], w⟩ : DotDims ⟨2, ![m, k]⟩ ⟨2, ![n, k]⟩ ⟨2, ![m, n]⟩).rhsIdx (ix2 a b)
      ((contrEquiv1 _ k rfl rfl).symm c) = ix2 b c := by
    funext ax; apply Fin.ext
    match ax with
    | ⟨0, _⟩ => simp [DotDims.rhsIdx]; rfl
    | ⟨1, _⟩ => simp [DotDims.rhsIdx]; exact c2
  rw [l2, r2]

end Matmul

/-! ## Sums along one axis of a rank-3 block -/

section AxisSums
variable {a b c : Nat} {φ : FTy}

/-- The sum along the FIRST axis of an a×b×c block is at (q, r) the sum over p of the block at (p, q, r). -/
theorem sum_first_axis_apply (src : FVec Ideal ⟨3, ![a, b, c]⟩ φ) (acc : BitVec φ.bits)
    (h : (⟨3, ![a, b, c]⟩ : Shape).Reduces [0] ⟨2, ![b, c]⟩) (hφ : FKind.Formats φ) (hacc : acc = FKind.add.neutral φ hφ)
    (q : Fin b) (r : Fin c) :
    multiReduction .add [0] ⟨2, ![b, c]⟩ src acc h hφ hacc (ix2 q r) = ∑ p : Fin a, src (ix3 p q r) := by
  rw [Ideal.multiReduction_add_single]
  refine Finset.sum_congr rfl fun p _ => congrArg src ?_
  funext ax; apply Fin.ext
  match ax with
  | ⟨0, _⟩ => rfl
  | ⟨1, _⟩ => rfl
  | ⟨2, _⟩ => rfl

/-- The sum along the LAST axis of an a×b×c block is at (p, q) the sum over r of the block at (p, q, r). -/
theorem sum_last_axis_apply (src : FVec Ideal ⟨3, ![a, b, c]⟩ φ) (acc : BitVec φ.bits)
    (h : (⟨3, ![a, b, c]⟩ : Shape).Reduces [2] ⟨2, ![a, b]⟩) (hφ : FKind.Formats φ) (hacc : acc = FKind.add.neutral φ hφ)
    (p : Fin a) (q : Fin b) :
    multiReduction .add [2] ⟨2, ![a, b]⟩ src acc h hφ hacc (ix2 p q) = ∑ r : Fin c, src (ix3 p q r) := by
  rw [Ideal.multiReduction_add_single]
  refine Finset.sum_congr rfl fun r _ => congrArg src ?_
  funext ax; apply Fin.ext
  match ax with
  | ⟨0, _⟩ => rfl
  | ⟨1, _⟩ => rfl
  | ⟨2, _⟩ => rfl

end AxisSums

/-! ## Re-shapings and broadcasts of per-row values -/

section Layout
variable {α : Type} {a b c : Nat}

/-- A 1×b row broadcast down a rows reads its entry b. -/
theorem broadcast_row_apply (x : (⟨2, ![1, b]⟩ : Shape).Idx → α) (h : (⟨2, ![1, b]⟩ : Shape).Broadcasts ⟨2, ![a, b]⟩)
    (p : Fin a) (q : Fin b) : broadcastTo ⟨2, ![a, b]⟩ x h (ix2 p q) = x (ix2 0 q) :=
  broadcastTo_apply x h _ _ fun ax => by
    match ax with
    | ⟨0, _⟩ => rfl
    | ⟨1, _⟩ =>
      show q.val = if b = 1 then 0 else q.val
      split_ifs with hb
      · have := q.isLt; omega
      · rfl

/-- A b×c matrix viewed as one 1×b×c slab and broadcast along a new leading axis of extent a reads the matrix. -/
theorem broadcast_slab_apply (x : (⟨2, ![b, c]⟩ : Shape).Idx → α)
    (h₁ : (⟨2, ![b, c]⟩ : Shape).ShapeCasts ⟨3, ![1, b, c]⟩)
    (h₂ : (⟨3, ![1, b, c]⟩ : Shape).Broadcasts ⟨3, ![a, b, c]⟩) (p : Fin a) (q : Fin b) (r : Fin c) :
    broadcastTo ⟨3, ![a, b, c]⟩ (shapeCast ⟨3, ![1, b, c]⟩ x h₁) h₂ (ix3 p q r) = x (ix2 q r) := by
  refine (broadcastTo_apply _ h₂ _ (ix3 0 q r) fun ax => ?_).trans ?_
  · match ax with
    | ⟨0, _⟩ => rfl
    | ⟨1, _⟩ =>
      show q.val = if b = 1 then 0 else q.val
      split_ifs with hb
      · have := q.isLt; omega
      · rfl
    | ⟨2, _⟩ =>
      show r.val = if c = 1 then 0 else r.val
      split_ifs with hc
      · have := r.isLt; omega
      · rfl
  · refine shapeCast_apply x h₁ _ _ ?_
    rw [Shape.rowMajor_val_two, Shape.rowMajor_val_three]
    show q.val * c + r.val = ((0 : Nat) * b + q.val) * c + r.val
    rw [Nat.zero_mul, Nat.zero_add]

/-- An a×b matrix viewed as a×b×1 columns and broadcast along a new trailing axis of extent c reads the matrix. -/
theorem broadcast_cols_apply (x : (⟨2, ![a, b]⟩ : Shape).Idx → α)
    (h₁ : (⟨2, ![a, b]⟩ : Shape).ShapeCasts ⟨3, ![a, b, 1]⟩)
    (h₂ : (⟨3, ![a, b, 1]⟩ : Shape).Broadcasts ⟨3, ![a, b, c]⟩) (p : Fin a) (q : Fin b) (r : Fin c) :
    broadcastTo ⟨3, ![a, b, c]⟩ (shapeCast ⟨3, ![a, b, 1]⟩ x h₁) h₂ (ix3 p q r) = x (ix2 p q) := by
  refine (broadcastTo_apply _ h₂ _ (ix3 p q 0) fun ax => ?_).trans ?_
  · match ax with
    | ⟨0, _⟩ =>
      show p.val = if a = 1 then 0 else p.val
      split_ifs with ha
      · have := p.isLt; omega
      · rfl
    | ⟨1, _⟩ =>
      show q.val = if b = 1 then 0 else q.val
      split_ifs with hb
      · have := q.isLt; omega
      · rfl
    | ⟨2, _⟩ => rfl
  · refine shapeCast_apply x h₁ _ _ ?_
    rw [Shape.rowMajor_val_two, Shape.rowMajor_val_three]
    show p.val * b + q.val = (p.val * b + q.val) * 1 + 0
    omega

end Layout

end Cert.Lib.BlockReads
-- ==== Proof.LibRowReductions.lean ====
/-
  A row-wise reduction of an a×b block read at an index, on the extended reals: the maximum along each row as the
  fold of max over the row's entries (a vector reduction and the reference's one-operand reduce alike), the sum along
  each row as the sum over the row's entries, and the re-shapings and broadcasts that put a column of per-row values
  or a row of per-column values beside the block. Nothing here mentions a program.
-/
import Idealize.ShloMosaic.PureOps.Ideal
import Idealize.ShloMosaic.PureOps.Ideal.Laws
import Idealize.ShloMosaic.PureOps.Reduce
import Idealize.ShloMosaic.Lib.ValueIdx
import Idealize.ShloMosaic.Lib.Pipeline.Value
import Idealize.ShloMosaic.Lib.ValueLayout

open scoped BigOperators

namespace Cert.Lib.RowReductions

open Idealize.ShloMosaic Idealize.ShloMosaic.ValueIdx

/-! ## Reductions along each row -/

section Rows
variable {a b : Nat} {φ : FTy}

/-- The row index p with column k put back is (p, k). -/
theorem lift_row (h : (⟨2, ![a, b]⟩ : Shape).Reduces [1] ⟨1, ![a]⟩) (p : Fin a)
    (k : Fin ((⟨2, ![a, b]⟩ : Shape).size 1)) : h.lift (ix1 p) k = ix2 p (⟨k.val, k.isLt⟩ : Fin b) := by
  funext ax; apply Fin.ext
  match ax with
  | ⟨0, _⟩ => rfl
  | ⟨1, _⟩ => rfl

/-- The maximum along each row of an a×b block is at p the fold of max, from the accumulator's value, over the
    entries (p, k) of row p. -/
theorem rowmax_apply (src : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (p : Fin a) :
    multiReduction .maximumf [1] ⟨1, ![a]⟩ src acc h hφ hacc (ix1 p)
      = (Finset.univ : Finset (Fin b)).fold max (FloatOps.ofBits (F := Ideal) φ acc) (fun k => src (ix2 p k)) := by
  rw [Ideal.multiReduction_maximumf_single]
  have hf : (src ∘ h.lift (ix1 p)) = fun k : Fin b => src (ix2 p k) :=
    funext fun k => congrArg src (lift_row h p k)
  exact congrArg (fun f => Finset.fold max (FloatOps.ofBits (F := Ideal) φ acc) f (Finset.univ : Finset (Fin b))) hf

/-- The sum along each row of an a×b block is at p the sum over k of the block at (p, k). -/
theorem rowsum_apply (src : FVec Ideal ⟨2, ![a, b]⟩ φ) (acc : BitVec φ.bits)
    (h : (⟨2, ![a, b]⟩ : Shape).Reduces [1] ⟨1, ![a]⟩) (hφ : FKind.Formats φ)
    (hacc : acc = FKind.add.neutral φ hφ) (p : Fin a) :
    multiReduction .add [1] ⟨1, ![a]⟩ src acc h hφ hacc (ix1 p) = ∑ k : Fin b, src (ix2 p k) := by
  rw [Ideal.multiReduction_add_single]
  exact Finset.sum_congr rfl fun k _ => congrArg src (lift_row h p k)

/-- The reference's one-operand reduce with a maximum body along each row of an a×b block is at p the fold of max,
    from the initial value's element, over the entries (p, k) of row p. -/
theorem host_rowmax_apply {u : Shape} (x : (⟨2, ![a, b]⟩ : Shape).Idx → Ideal .f32) (init : u.Idx → Ideal .f32)
    (h' : (⟨2, ![a, b]⟩ : Shape).ReducesTo [1] ⟨1, ![a]⟩) (hu : 0 < u.numel) (p : Fin a) :
    Host.reduce (FloatOps.maximumf (F := Ideal) (φ := .f32)) x init h' hu (ix1 p)
      = (Finset.univ : Finset (Fin b)).fold max (init (Shape.Idx.first hu)) (fun k => x (ix2 p k)) := by
  have h : (⟨2, ![a, b]⟩ : Shape).Reduces [1] ⟨1, ![a]⟩ := ⟨h'.1, Nat.one_pos, h'.2⟩
  rw [Host.reduce_eq_fold_single FloatOps.maximumf x init h' h hu]
  have hf : (x ∘ h.lift (ix1 p)) = fun k : Fin b => x (ix2 p k) :=
    funext fun k => congrArg x (lift_row h p k)
  exact congrArg (fun f => Finset.fold max (init (Shape.Idx.first hu)) f (Finset.univ : Finset (Fin b))) hf

end Rows

/-! ## Re-shapings and broadcasts of per-row and per-column values -/

section Layout
variable {α : Type} {a b : Nat}

/-- A vector of a entries viewed as an a×1 column reads its entry p at (p, 0). -/
theorem shapeCast_col_apply (x : (⟨1, ![a]⟩ : Shape).Idx → α) (h : (⟨1, ![a]⟩ : Shape).ShapeCasts ⟨2, ![a, 1]⟩)
    (p : Fin a) : shapeCast ⟨2, ![a, 1]⟩ x h (ix2 p 0) = x (ix1 p) := by
  refine shapeCast_apply x h _ _ ?_
  rw [Shape.rowMajor_val_one, Shape.rowMajor_val_two]
  show p.val = p.val * 1 + 0
  omega

/-- An a×1 column broadcast across b columns reads its entry p at every (p, q). -/
theorem broadcast_col_apply (x : (⟨2, ![a, 1]⟩ : Shape).Idx → α) (h : (⟨2, ![a, 1]⟩ : Shape).Broadcasts ⟨2, ![a, b]⟩)
    (p : Fin a) (q : Fin b) : broadcastTo ⟨2, ![a, b]⟩ x h (ix2 p q) = x (ix2 p 0) :=
  broadcastTo_apply x h _ _ fun ax => by
    match ax with
    | ⟨0, _⟩ =>
      show p.val = if a = 1 then 0 else p.val
      split_ifs with ha
      · have := p.isLt; omega
      · rfl
    | ⟨1, _⟩ => rfl

/-- A vector of b entries viewed as a 1×b row reads its entry q at (0, q). -/
theorem shapeCast_rowvec_apply (x : (⟨1, ![b]⟩ : Shape).Idx → α) (h : (⟨1, ![b]⟩ : Shape).ShapeCasts ⟨2, ![1, b]⟩)
    (q : Fin b) : shapeCast ⟨2, ![1, b]⟩ x h (ix2 0 q) = x (ix1 q) := by
  refine shapeCast_apply x h _ _ ?_
  rw [Shape.rowMajor_val_one, Shape.rowMajor_val_two]
  show q.val = (0 : Nat) * b + q.val
  omega

end Layout

/-! ## The accumulator of a maximum -/

/-- The maximum of −∞ and x is x. -/
theorem fold_max_bot (x : EReal) : max (⊥ : EReal) x = x := max_eq_right bot_le

/-- The single-precision bit pattern FF800000 is −∞. -/
theorem ofBits_neg_inf_f32 : Ideal.ofBits .f32 0xFF800000#32 = (⊥ : EReal) := by
  simp [Ideal.ofBits, Ideal.ieee]

/-! ## The reference's broadcasts of per-row values and of a scalar -/

section HostBroadcasts
variable {α : Type} {n c : Nat}

/-- A vector of n entries broadcast into an n×1 column along the rows reads its entry p at (p, 0). -/
theorem bcastInDim_col_apply (x : (⟨1, ![n]⟩ : Shape).Idx → α)
    (h : (⟨1, ![n]⟩ : Shape).BroadcastsInDim ⟨2, ![n, 1]⟩ ![0]) (p : Fin n) :
    broadcastInDim ⟨2, ![n, 1]⟩ ![0] h x (ix2 p 0) = x (ix1 p) :=
  broadcastInDim_apply _ h x _ _ fun ax => by
    match ax with
    | ⟨0, _⟩ =>
      show p.val = if n = 1 then 0 else p.val
      split_ifs with hn
      · have := p.isLt; omega
      · rfl

/-- An n×1 column broadcast into an n×c block, axis for axis, reads its entry p at every (p, q). -/
theorem bcastInDim_cols_apply (x : (⟨2, ![n, 1]⟩ : Shape).Idx → α)
    (h : (⟨2, ![n, 1]⟩ : Shape).BroadcastsInDim ⟨2, ![n, c]⟩ ![0, 1]) (p : Fin n) (q : Fin c) :
    broadcastInDim ⟨2, ![n, c]⟩ ![0, 1] h x (ix2 p q) = x (ix2 p 0) :=
  broadcastInDim_apply _ h x _ _ fun ax => by
    match ax with
    | ⟨0, _⟩ =>
      show p.val = if n = 1 then 0 else p.val
      split_ifs with hn
      · have := p.isLt; omega
      · rfl
    | ⟨1, _⟩ => rfl

/-- A scalar broadcast into an n×c block reads the scalar at every index. -/
theorem bcastInDim_scalar_apply (x : (⟨0, ![]⟩ : Shape).Idx → α)
    (h : (⟨0, ![]⟩ : Shape).BroadcastsInDim ⟨2, ![n, c]⟩ ![]) (i : (⟨2, ![n, c]⟩ : Shape).Idx) :
    broadcastInDim ⟨2, ![n, c]⟩ ![] h x i = x ix0 :=
  broadcastInDim_apply _ h x _ _ fun ax => ax.elim0

end HostBroadcasts

end Cert.Lib.RowReductions
-- ==== Proof.LibIdealSums.lean ====
/-
  Sums and quotients of extended reals, as the ideal reading of a float program meets them: the coercion from the
  reals through finite sums, a product with a reciprocal against a quotient, a sum over a zero-padded index range,
  a sum regrouped or split, and the logistic function written out. Nothing here mentions a program.
-/
import Mathlib.Algebra.BigOperators.Fin
import Mathlib.Data.EReal.Inv
import Idealize.ShloMosaic.PureOps.Ideal
import Idealize.ShloMosaic.PureOps.Ideal.Laws
import Idealize.ShloMosaic.Lib.ValueIdx

open scoped BigOperators

namespace Cert.Lib.IdealSums

open Idealize.ShloMosaic

/-! ## The coercion of the reals through finite sums and products -/

/-- The extended real of a finite sum of reals is the sum of their extended reals: the coercion is additive,
    by induction on the index set. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite type. -/
theorem coe_sum_univ {ι : Type*} [Fintype ι] (f : ι → ℝ) :
    ((∑ i, f i : ℝ) : EReal) = ∑ i, (f i : EReal) :=
  coe_sum Finset.univ f

/-- The extended real of a finite sum of products of reals is the sum of the products of their extended reals:
    the coercion is additive and multiplicative. -/
theorem coe_sum_mul {ι : Type*} (s : Finset ι) (f g : ι → ℝ) :
    ((∑ i ∈ s, f i * g i : ℝ) : EReal) = ∑ i ∈ s, (f i : EReal) * (g i : EReal) := by
  rw [coe_sum]
  exact Finset.sum_congr rfl fun i _ => EReal.coe_mul _ _

/-- A real times a finite sum of reals, in the extended reals: the product distributes before or after the coercion. -/
theorem coe_mul_sum {ι : Type*} (s : Finset ι) (c : ℝ) (f : ι → ℝ) :
    (c : EReal) * ∑ i ∈ s, (f i : EReal) = ∑ i ∈ s, (c : EReal) * (f i : EReal) := by
  rw [← coe_sum, ← EReal.coe_mul, Finset.mul_sum, coe_sum]
  exact Finset.sum_congr rfl fun i _ => EReal.coe_mul _ _

/-- A finite sum of reals is neither infinity in the extended reals. -/
theorem sum_coe_ne_top {ι : Type*} (s : Finset ι) (f : ι → ℝ) : ∑ i ∈ s, (f i : EReal) ≠ ⊤ := by
  rw [← coe_sum]; exact EReal.coe_ne_top _
theorem sum_coe_ne_bot {ι : Type*} (s : Finset ι) (f : ι → ℝ) : ∑ i ∈ s, (f i : EReal) ≠ ⊥ := by
  rw [← coe_sum]; exact EReal.coe_ne_bot _

/-- A nonempty finite sum of positive reals is positive in the extended reals (a softmax denominator: a sum of
    exponentials), hence not zero. -/
theorem sum_coe_pos {ι : Type*} (s : Finset ι) (hs : s.Nonempty) (f : ι → ℝ) (hf : ∀ i ∈ s, 0 < f i) :
    (0 : EReal) < ∑ i ∈ s, (f i : EReal) := by
  rw [← coe_sum]
  exact_mod_cast Finset.sum_pos hf hs
theorem sum_coe_ne_zero {ι : Type*} (s : Finset ι) (hs : s.Nonempty) (f : ι → ℝ) (hf : ∀ i ∈ s, 0 < f i) :
    ∑ i ∈ s, (f i : EReal) ≠ 0 :=
  (sum_coe_pos s hs f hf).ne'

/-! ## A product with the reciprocal against the quotient -/

/-- Multiplying by the reciprocal is dividing, whenever the divisor or the dividend is not zero. Off zero the
    quotient is the product with the inverse and `1 · s⁻¹ = s⁻¹`; by zero the reciprocal is `+∞` and `p · +∞` is the
    infinity of `p`'s sign, which is the quotient's value there. (At `p = s = 0` the two differ: `0 · +∞ = 0` but
    `0 / 0` is `-∞`.) -/
theorem mul_div_one {p s : EReal} (h : s ≠ 0 ∨ p ≠ 0) : p * Ideal.div 1 s = Ideal.div p s := by
  by_cases hs : s = 0
  · subst hs
    have hp : p ≠ 0 := h.resolve_left fun h0 => h0 rfl
    unfold Ideal.div
    rw [if_pos rfl, if_pos rfl, if_pos (show (0 : EReal) < 1 from zero_lt_one)]
    by_cases h0 : 0 < p
    · rw [if_pos h0, EReal.mul_top_of_pos h0]
    · rw [if_neg h0, EReal.mul_top_of_neg (lt_of_le_of_ne (not_lt.mp h0) hp)]
  · unfold Ideal.div
    rw [if_neg hs, if_neg hs, one_mul]

/-- The case a normalisation uses: the divisor is not zero. -/
theorem mul_div_one_of_ne_zero (p : EReal) {s : EReal} (hs : s ≠ 0) : p * Ideal.div 1 s = Ideal.div p s :=
  mul_div_one (Or.inl hs)

/-- The same in the float operations' spelling at the ideal values: a kernel's product with a reciprocal is the
    host's quotient. -/
theorem mulf_divf_one {φ : FTy} (p s : Ideal φ) (hs : s ≠ 0) :
    FloatOps.mulf p (FloatOps.divf (1 : Ideal φ) s) = FloatOps.hostDivf p s :=
  mul_div_one_of_ne_zero p hs
theorem mulf_divf_one_f32 (p s : Ideal .f32) (hs : s ≠ 0) :
    FloatOps.mulf p (FloatOps.divf (1 : Ideal .f32) s) = FloatOps.hostDivf p s :=
  mulf_divf_one p s hs
/-- With the reciprocal taken by the kernel's reciprocal operation. -/
theorem mulf_reciprocal {φ : FTy} (approx : Bool) (p s : Ideal φ) (hs : s ≠ 0) :
    FloatOps.mulf p (FloatOps.reciprocal approx s) = FloatOps.hostDivf p s :=
  mul_div_one_of_ne_zero p hs

/-! ## Sums over a zero-padded range -/

/-- A sum over `N` indices of a function that vanishes from `n` on is the sum over the first `n`: the tail adds zeros. -/
theorem sum_fin_pad {M : Type*} [AddCommMonoid M] {n N : ℕ} (hnN : n ≤ N) (f : Fin N → M)
    (h : ∀ k : Fin N, n ≤ k.val → f k = 0) :
    ∑ k : Fin N, f k = ∑ k : Fin n, f (Fin.castLE hnN k) := by
  obtain ⟨m, rfl⟩ := Nat.exists_eq_add_of_le hnN
  rw [Fin.sum_univ_add, Fintype.sum_eq_zero _ (fun j : Fin m => h (Fin.natAdd n j) (Nat.le_add_right n j.val)), add_zero]
  rfl

/-- A 128-wide sum whose last 28 terms are zero is the 100-wide sum (a table padded with zero columns adds nothing). -/
theorem sum_fin128_pad {M : Type*} [AddCommMonoid M] (f : Fin 128 → M) (h : ∀ k : Fin 128, 100 ≤ k.val → f k = 0) :
    ∑ k : Fin 128, f k = ∑ k : Fin 100, f (Fin.castLE (by decide) k) :=
  sum_fin_pad (by decide) f h

/-! ## Regrouping and splitting -/

/-- Inside a sum a triple product may be regrouped: the multiplication of extended reals is commutative and
    associative with no finiteness condition. -/
theorem sum_mul_right_comm {ι : Type*} (s : Finset ι) (h a g : ι → EReal) :
    ∑ d ∈ s, (h d * a d) * g d = ∑ d ∈ s, (h d * g d) * a d :=
  Finset.sum_congr rfl fun d _ => mul_right_comm (h d) (a d) (g d)
theorem sum_univ_mul_right_comm {ι : Type*} [Fintype ι] (h a g : ι → EReal) :
    ∑ d, (h d * a d) * g d = ∑ d, (h d * g d) * a d :=
  sum_mul_right_comm Finset.univ h a g

/-- A sum over `m + n` indices is the sum over the first `m` plus the sum over the last `n`. -/
theorem sum_fin_split {M : Type*} [AddCommMonoid M] {m n N : ℕ} (hN : N = m + n) (f : Fin N → M) :
    ∑ k : Fin N, f k
      = ∑ k : Fin m, f ⟨k.val, by omega⟩ + ∑ k : Fin n, f ⟨m + k.val, by omega⟩ := by
  subst hN
  exact Fin.sum_univ_add f

/-- A 200-wide sum is the sum of its two 100-wide halves (two 100-wide inputs side by side against one 200-wide weight). -/
theorem sum_fin200_split {M : Type*} [AddCommMonoid M] (f : Fin 200 → M) :
    ∑ k : Fin 200, f k = ∑ k : Fin 100, f ⟨k.val, by omega⟩ + ∑ k : Fin 100, f ⟨100 + k.val, by omega⟩ :=
  sum_fin_split (m := 100) (n := 100) rfl f

/-! ## The logistic function written out -/

/-- The logistic function is `1 / (1 + e^(-x))`, by definition, at every extended real (`-∞ ↦ 0`, `+∞ ↦ 1`). -/
theorem logistic_eq (x : EReal) : Ideal.logistic x = Ideal.div 1 (1 + Ideal.exp (-x)) := rfl

/-- At the ideal values the one-operation logistic is the host's expansion of it: negate, exponential, add one, divide. -/
theorem logistic_eq_host {φ : FTy} (x : Ideal φ) :
    FloatOps.logistic x
      = FloatOps.hostDivf (1 : Ideal φ) (FloatOps.addf 1 (FloatOps.hostUnary .exp (FloatOps.hostNegf x))) := rfl
theorem logistic_eq_host_f32 (x : Ideal .f32) :
    FloatOps.logistic x
      = FloatOps.hostDivf (1 : Ideal .f32) (FloatOps.addf 1 (FloatOps.hostUnary .exp (FloatOps.hostNegf x))) := rfl
/-- and the same expression in a kernel's operations, and the host's one-operation logistic. -/
theorem logistic_eq_kernel {φ : FTy} (x : Ideal φ) :
    FloatOps.logistic x = FloatOps.divf (1 : Ideal φ) (FloatOps.addf 1 (FloatOps.exp (FloatOps.negf x))) := rfl
theorem logistic_eq_hostUnary {φ : FTy} (x : Ideal φ) : FloatOps.logistic x = FloatOps.hostUnary .logistic x := rfl

/-! ## Values that are reals

The input check makes every float argument finite, and the operations of a program keep finite values finite (sums,
products, exponentials, quotients by a nonzero value): such a value is the coercion of a real, and equations between
them are equations between reals. -/

/-- An extended real that is a real. -/
def IsReal (x : EReal) : Prop := ∃ r : ℝ, x = (r : EReal)

theorem isReal_coe (r : ℝ) : IsReal (r : EReal) := ⟨r, rfl⟩
theorem isReal_zero : IsReal 0 := ⟨0, rfl⟩
theorem isReal_one : IsReal 1 := ⟨1, rfl⟩

/-- A real is neither infinity, and an extended real that is neither infinity is a real. -/
theorem isReal_iff {x : EReal} : IsReal x ↔ x ≠ ⊤ ∧ x ≠ ⊥ := by
  constructor
  · rintro ⟨r, rfl⟩; exact ⟨EReal.coe_ne_top r, EReal.coe_ne_bot r⟩
  · rintro ⟨ht, hb⟩; exact ⟨x.toReal, (EReal.coe_toReal ht hb).symm⟩

theorem IsReal.ne_top {x : EReal} (h : IsReal x) : x ≠ ⊤ := (isReal_iff.1 h).1
theorem IsReal.ne_bot {x : EReal} (h : IsReal x) : x ≠ ⊥ := (isReal_iff.1 h).2

/-- Sums, differences, negations and products of reals are reals. -/
theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.neg {x : EReal} (hx : IsReal x) : IsReal (-x) := by
  obtain ⟨a, rfl⟩ := hx; exact ⟨-a, (EReal.coe_neg a).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- A finite sum of reals is a real. -/
theorem IsReal.sum {ι : Type*} (s : Finset ι) {f : ι → EReal} (hf : ∀ i ∈ s, IsReal (f i)) : IsReal (∑ i ∈ s, f i) := by
  classical
  induction s using Finset.induction_on with
  | empty => simpa using isReal_zero
  | insert a s ha ih =>
    rw [Finset.sum_insert ha]
    exact (hf a (Finset.mem_insert_self a s)).add (ih fun i hi => hf i (Finset.mem_insert_of_mem hi))

/-- The exponential, the hyperbolic tangent and the logistic function of a real are reals. -/
theorem IsReal.exp {x : EReal} (hx : IsReal x) : IsReal (Ideal.exp x) := by
  obtain ⟨a, rfl⟩ := hx; exact ⟨Real.exp a, rfl⟩
theorem IsReal.tanh {x : EReal} (hx : IsReal x) : IsReal (Ideal.tanh x) := by
  obtain ⟨a, rfl⟩ := hx; exact ⟨Real.tanh a, rfl⟩
theorem IsReal.logistic {x : EReal} (hx : IsReal x) : IsReal (Ideal.logistic x) := by
  obtain ⟨a, rfl⟩ := hx; exact ⟨(1 + Real.exp (-a))⁻¹, Ideal.logistic_coe a⟩

/-- The exponential of a real is a positive real; the exponential of any extended real is not negative. -/
theorem exp_coe_pos (r : ℝ) : (0 : EReal) < Ideal.exp (r : EReal) := by
  rw [Ideal.exp_coe]; exact_mod_cast Real.exp_pos r
theorem exp_nonneg (x : EReal) : 0 ≤ Ideal.exp x := by
  induction x using EReal.rec with
  | bot => rw [Ideal.exp_bot]
  | coe r => exact (exp_coe_pos r).le
  | top => rw [Ideal.exp_top]; exact le_top

/-- The quotient of two reals with a nonzero divisor is their real quotient. -/
theorem div_coe_coe (a : ℝ) {b : ℝ} (hb : b ≠ 0) : Ideal.div (a : EReal) (b : EReal) = ((a / b : ℝ) : EReal) := by
  rw [Ideal.div_coe hb, ← EReal.coe_mul, mul_one_div]
theorem IsReal.div {x y : EReal} (hx : IsReal x) (hy : IsReal y) (h0 : y ≠ 0) : IsReal (Ideal.div x y) := by
  obtain ⟨a, rfl⟩ := hx; obtain ⟨b, rfl⟩ := hy
  exact ⟨a / b, div_coe_coe a (by exact_mod_cast h0)⟩

/-- The bit pattern of `+∞` in the 32-bit format denotes `+∞`. -/
theorem ofBits_inf_f32 : Ideal.ofBits .f32 0x7F800000#32 = ⊤ := by simp [Ideal.ofBits, Ideal.ieee]

/-- An extended real whose absolute value is below `+∞` is a real: it is not `+∞`, and it is not `-∞` since then
    its negation would be. -/
theorem isReal_of_abs_lt_top {x : EReal} (h : max x (-x) < ⊤) : IsReal x := by
  refine isReal_iff.2 ⟨fun e => ?_, fun e => ?_⟩
  · subst e; exact absurd h (by simp)
  · subst e; exact absurd h (by simp)

/-- The input check's element fact, `|x| < +∞` as the float comparison computes it, says that `x` is a real. -/
theorem isReal_of_cmpf_abs (x : Ideal .f32)
    (h : FloatOps.cmpf .olt (FloatOps.hostAbsf x) (FloatOps.ofBits (F := Ideal) .f32 0x7F800000#32) = 1#1) : IsReal x := by
  have h' : Ideal.cmp .olt (max x (-x)) (Ideal.ofBits .f32 0x7F800000#32) = 1#1 := h
  rw [ofBits_inf_f32] at h'
  unfold Ideal.cmp at h'
  by_cases hlt : max x (-x) < ⊤
  · exact isReal_of_abs_lt_top hlt
  · simp [hlt] at h'

/-! ## The softmax aggregation, normalised before or after the sum -/

/-- For real weights `e k`, real values `v k` and a nonzero real total `S`: normalising each weight and then
    summing the weighted values is summing them and then normalising (a quotient by a real distributes over a finite
    sum of reals, which it would not over infinities). -/
theorem sum_div_mul_coe {ι : Type*} (s : Finset ι) (e v : ι → ℝ) {S : ℝ} (hS : S ≠ 0) :
    ∑ k ∈ s, Ideal.div (e k : EReal) (S : EReal) * (v k : EReal)
      = Ideal.div (∑ k ∈ s, (e k : EReal) * (v k : EReal)) (S : EReal) := by
  rw [← coe_sum_mul, div_coe_coe _ hS, Finset.sum_div, coe_sum]
  refine Finset.sum_congr rfl fun k _ => ?_
  rw [div_coe_coe _ hS, ← EReal.coe_mul, div_mul_eq_mul_div]

/-- The same with the kernel's normalisation, a product with the reciprocal of the total. -/
theorem sum_mul_recip_coe {ι : Type*} (s : Finset ι) (e v : ι → ℝ) {S : ℝ} (hS : S ≠ 0) :
    (∑ k ∈ s, (e k : EReal) * (v k : EReal)) * Ideal.div 1 (S : EReal)
      = ∑ k ∈ s, Ideal.div (e k : EReal) (S : EReal) * (v k : EReal) := by
  rw [sum_div_mul_coe s e v hS]
  exact mul_div_one_of_ne_zero _ (by exact_mod_cast hS)

end Cert.Lib.IdealSums
-- ==== Proof.PowerSoftmax.lean ====
/-
  One row of a masked softmax attention, on the extended reals, in the two arrangements this certificate joins.

  For a row of real scores w and a mask μ with entries 0 or 1:
  * the one-stage row: weights e_k = exp(s_k − max s) · μ_k over the scores s = 3 · w, normalised by their sum;
  * the two-stage row: weights a_k = exp(w_k − max w) · μ_k, normalised by (Σ a + ε) with ε > 0, each quotient
    cubed, and the cubes normalised by their sum.
  Since μ_k³ = μ_k and exp(x)³ = exp(3x), the cube of a_k / (Σ a + ε) is e_k / (Σ a + ε)³: every cube, and so their
  sum, is the one-stage weight (resp. total) divided by the same positive real, and a quotient does not change when
  dividend and divisor are divided by one positive real — also when the divisor is zero (a row masked out
  entirely), where the quotient's value is decided by the sign of the dividend. Nothing here mentions a program.
-/
import proofs.«152501_j80573586473568_1_alg».proof.Proof.LibIdealSums

open scoped BigOperators

noncomputable section

namespace Cert.PowerAttn

open Idealize.ShloMosaic Cert.Lib.IdealSums

variable {n : ℕ}

/-- The weight of column k in a row of scores s under the mask μ: exp(s_k − max s) · μ_k. -/
def weight (s μ : Fin n → EReal) (k : Fin n) : EReal :=
  Ideal.exp (s k - (Finset.univ : Finset (Fin n)).fold max ⊥ s) * μ k

/-- The one-stage row: each weight over the sum of the weights. -/
def softRow (s μ : Fin n → EReal) (j : Fin n) : EReal :=
  Ideal.div (weight s μ j) (∑ k, weight s μ k)

/-- The first stage of the two-stage row: each weight over the sum of the weights plus ε. -/
def stage1 (ε : EReal) (w μ : Fin n → EReal) (k : Fin n) : EReal :=
  Ideal.div (weight w μ k) ((∑ l, weight w μ l) + ε)

/-- The cube, as the product the reference spells: (x · x) · x. -/
def cube (x : EReal) : EReal := (x * x) * x

/-- The two-stage row: the cubes of the first stage over the sum of the cubes. -/
def powRow (ε : EReal) (w μ : Fin n → EReal) (j : Fin n) : EReal :=
  Ideal.div (cube (stage1 ε w μ j)) (∑ k, cube (stage1 ε w μ k))

/-- The coercion of the reals into the extended reals carries a maximum to the maximum. -/
theorem coe_max' (a b : ℝ) : ((max a b : ℝ) : EReal) = max (a : EReal) (b : EReal) :=
  EReal.coe_strictMono.monotone.map_max

/-- The running maximum (from −∞) of finitely many reals is a real M as soon as there is one of them, and the running
    maximum of the same reals each multiplied by c ≥ 0 is M · c. -/
theorem fold_max_scaled {ι : Type*} (f : ι → ℝ) (c : ℝ) (hc : 0 ≤ c) (s : Finset ι) :
    s = ∅ ∨ ∃ M : ℝ, s.fold max (⊥ : EReal) (fun k => (f k : EReal)) = (M : EReal)
      ∧ s.fold max (⊥ : EReal) (fun k => ((f k * c : ℝ) : EReal)) = ((M * c : ℝ) : EReal) := by
  classical
  induction s using Finset.induction_on with
  | empty => exact Or.inl rfl
  | insert a s ha ih =>
    right
    rw [Finset.fold_insert ha, Finset.fold_insert ha]
    rcases ih with rfl | ⟨M, h1, h2⟩
    · exact ⟨f a, by rw [Finset.fold_empty, max_eq_left bot_le], by rw [Finset.fold_empty, max_eq_left bot_le]⟩
    · refine ⟨max (f a) M, ?_, ?_⟩
      · rw [h1, coe_max']
      · rw [h2, ← coe_max', max_mul_of_nonneg _ _ hc]

/-- A quotient of reals is unchanged when dividend and divisor are both divided by one positive real, the divisor
    zero included: there the quotient is +∞ or −∞ by the sign of the dividend, which the division keeps. -/
theorem div_scale (x D c : ℝ) (hc : 0 < c) :
    Ideal.div ((x / c : ℝ) : EReal) ((D / c : ℝ) : EReal) = Ideal.div (x : EReal) (D : EReal) := by
  by_cases hD : D = 0
  · subst hD
    have e0 : ((0 / c : ℝ) : EReal) = 0 := by rw [zero_div, EReal.coe_zero]
    have e1 : ((0 : ℝ) : EReal) = 0 := EReal.coe_zero
    unfold Ideal.div
    rw [e0, e1, if_pos rfl, if_pos rfl]
    have hiff : (0 : EReal) < ((x / c : ℝ) : EReal) ↔ (0 : EReal) < (x : EReal) := by
      rw [← EReal.coe_zero, EReal.coe_lt_coe_iff, EReal.coe_lt_coe_iff]
      exact div_pos_iff_of_pos_right hc
    by_cases h : (0 : EReal) < (x : EReal)
    · rw [if_pos h, if_pos (hiff.2 h)]
    · rw [if_neg h, if_neg (fun h' => h (hiff.1 h'))]
  · have hDc : D / c ≠ 0 := div_ne_zero hD hc.ne'
    rw [div_coe_coe _ hDc, div_coe_coe _ hD]
    congr 1
    field_simp

/-- THE LAW OF THIS CERTIFICATE. For a nonempty row of real scores σ and a mask of zeros and ones, the two-stage row over
    the scores σ / 8 (first stage shifted by ε > 0) is the one-stage row over the scores σ · 3/8. -/
theorem powRow_eq_softRow (hn : 0 < n) (σ μ : Fin n → EReal) (hσ : ∀ k, IsReal (σ k))
    (hμ : ∀ k, μ k = 0 ∨ μ k = 1) (ε : ℝ) (hε : 0 < ε) (j : Fin n) :
    powRow (ε : EReal) (fun k => Ideal.div (σ k) ((8 : ℝ) : EReal)) μ j
      = softRow (fun k => σ k * ((3 / 8 : ℝ) : EReal)) μ j := by
  classical
  choose r hr using hσ
  have hm : ∀ k, ∃ mk : ℝ, μ k = (mk : EReal) ∧ (mk = 0 ∨ mk = 1) := fun k => by
    rcases hμ k with h | h
    · exact ⟨0, by rw [h, EReal.coe_zero], Or.inl rfl⟩
    · exact ⟨1, by rw [h, EReal.coe_one], Or.inr rfl⟩
  choose mk hmk hmk01 using hm
  have hw : (fun k => Ideal.div (σ k) ((8 : ℝ) : EReal)) = fun k => ((r k / 8 : ℝ) : EReal) := funext fun k => by
    rw [hr k, div_coe_coe _ (by norm_num : (8 : ℝ) ≠ 0)]
  have hs : (fun k => σ k * ((3 / 8 : ℝ) : EReal)) = fun k => ((r k / 8 * 3 : ℝ) : EReal) := funext fun k => by
    rw [hr k, ← EReal.coe_mul]; congr 1; ring
  rw [hw, hs]
  obtain hemp | ⟨M, hM1, hM2⟩ :=
    fold_max_scaled (fun k => r k / 8) 3 (by norm_num) (Finset.univ : Finset (Fin n))
  · exact absurd hemp (Finset.univ_nonempty_iff.2 ⟨⟨0, hn⟩⟩).ne_empty
  -- the two families of weights, as reals
  obtain ⟨A, hAdef⟩ : ∃ A : Fin n → ℝ, ∀ k, A k = Real.exp (r k / 8 - M) * mk k := ⟨_, fun _ => rfl⟩
  obtain ⟨E, hEdef⟩ : ∃ E : Fin n → ℝ, ∀ k, E k = Real.exp (r k / 8 * 3 - M * 3) * mk k := ⟨_, fun _ => rfl⟩
  have hA : ∀ k, weight (fun k => ((r k / 8 : ℝ) : EReal)) μ k = ((A k : ℝ) : EReal) := fun k => by
    unfold weight
    rw [hM1, hmk k, hAdef k]
    show Ideal.exp (((r k / 8 : ℝ) : EReal) - (M : EReal)) * _ = _
    rw [← EReal.coe_sub, Ideal.exp_coe, ← EReal.coe_mul]
  have hE : ∀ k, weight (fun k => ((r k / 8 * 3 : ℝ) : EReal)) μ k = ((E k : ℝ) : EReal) := fun k => by
    unfold weight
    rw [hM2, hmk k, hEdef k]
    show Ideal.exp (((r k / 8 * 3 : ℝ) : EReal) - ((M * 3 : ℝ) : EReal)) * _ = _
    rw [← EReal.coe_sub, Ideal.exp_coe, ← EReal.coe_mul]
  have hA0 : ∀ k, 0 ≤ A k := fun k => by
    rw [hAdef k]
    rcases hmk01 k with h | h
    · rw [h, mul_zero]
    · rw [h, mul_one]; exact (Real.exp_pos _).le
  have hS : 0 < (∑ k, A k) + ε := add_pos_of_nonneg_of_pos (Finset.sum_nonneg fun k _ => hA0 k) hε
  have hcube : ∀ k, A k * A k * A k = E k := fun k => by
    have h3 : Real.exp (r k / 8 * 3 - M * 3)
        = Real.exp (r k / 8 - M) * Real.exp (r k / 8 - M) * Real.exp (r k / 8 - M) := by
      rw [← Real.exp_add, ← Real.exp_add]; congr 1; ring
    have hm3 : mk k * mk k * mk k = mk k := by
      rcases hmk01 k with h | h <;> rw [h] <;> norm_num
    rw [hAdef k, hEdef k, h3]
    calc Real.exp (r k / 8 - M) * mk k * (Real.exp (r k / 8 - M) * mk k) * (Real.exp (r k / 8 - M) * mk k)
        = Real.exp (r k / 8 - M) * Real.exp (r k / 8 - M) * Real.exp (r k / 8 - M) * (mk k * mk k * mk k) := by ring
      _ = _ := by rw [hm3]
  obtain ⟨Sε, hSdef⟩ : ∃ Sε : ℝ, Sε = (∑ k, A k) + ε := ⟨_, rfl⟩
  rw [← hSdef] at hS
  have hc : 0 < Sε * Sε * Sε := mul_pos (mul_pos hS hS) hS
  have hst : ∀ k, cube (stage1 (ε : EReal) (fun k => ((r k / 8 : ℝ) : EReal)) μ k)
      = ((E k / (Sε * Sε * Sε) : ℝ) : EReal) := fun k => by
    unfold cube stage1
    simp only [hA]
    rw [← coe_sum_univ, ← EReal.coe_add, ← hSdef, div_coe_coe _ hS.ne', ← EReal.coe_mul, ← EReal.coe_mul,
      div_mul_div_comm, div_mul_div_comm, hcube k]
  unfold powRow softRow
  simp only [hst, hE]
  rw [← coe_sum_univ, ← coe_sum_univ, ← Finset.sum_div]
  exact div_scale _ _ _ hc

end Cert.PowerAttn

end
-- ==== Proof.AttnSpec.lean ====
/-
  The result of this certificate's two programs as whole-array functions on the extended reals, and the facts about
  its literals and its masks. Nothing here mentions a program.

  For queries q, keys k, values v (8 × 2048 × 64 each), a query mask qm (8 × 2048 × 1) and a key mask km (8 × 1 × 2048),
  both already numbers: row (b, p) of the attention matrix is the one-stage masked softmax of the scores
  s_j = (Σ_d q(b, p, d) · k(b, j, d)) · 0.375 under the mask μ_j = min(qm(b, p), km(b, j)), and the output is that matrix
  times v, batch by batch.
-/
import proofs.«152501_j80573586473568_1_alg».proof.Proof.PowerSoftmax
import Idealize.ShloMosaic.Lib.ValueIdx
import Idealize.ShloMosaic.Lib.Pipeline.Value

open scoped BigOperators

noncomputable section

namespace Cert.PowerAttn

open Idealize.ShloMosaic Idealize.ShloMosaic.ValueIdx Cert.Lib.IdealSums

abbrev ShQ : Shape := ⟨3, ![8, 2048, 64]⟩
abbrev ShQM : Shape := ⟨3, ![8, 2048, 1]⟩
abbrev ShKM : Shape := ⟨3, ![8, 1, 2048]⟩
abbrev ShT : Shape := ⟨3, ![8, 2048, 2048]⟩

/-- The scaled scores of query (b, p) against every key of batch b. -/
def scoreRow (q k : ShQ.Idx → EReal) (b : Fin 8) (p : Fin 2048) : Fin 2048 → EReal :=
  fun j => (∑ d : Fin 64, q (ix3 b p d) * k (ix3 b j d)) * Ideal.ofBits .f32 0x3EC00000#32

/-- The combined mask of query (b, p) against every key of batch b. -/
def maskRow (qm : ShQM.Idx → EReal) (km : ShKM.Idx → EReal) (b : Fin 8) (p : Fin 2048) : Fin 2048 → EReal :=
  fun j => min (qm (ix3 b p 0)) (km (ix3 b 0 j))

/-- The attention matrix. -/
def attnT (q k : ShQ.Idx → EReal) (qm : ShQM.Idx → EReal) (km : ShKM.Idx → EReal) : ShT.Idx → EReal :=
  fun i => softRow (scoreRow q k (i 0) (i 1)) (maskRow qm km (i 0) (i 1)) (i 2)

/-- The attention output: the attention matrix times the values. -/
def attnF (q k v : ShQ.Idx → EReal) (qm : ShQM.Idx → EReal) (km : ShKM.Idx → EReal) : ShQ.Idx → EReal :=
  fun i => ∑ j : Fin 2048, attnT q k qm km (ix3 (i 0) (i 1) j) * v (ix3 (i 0) j (i 2))

/-! ## The literals -/

/-- The divisor 8.0 of the reference's scores denotes the real 8. -/
theorem ofBits_eight : Ideal.ofBits .f32 0x41000000#32 = ((8 : ℝ) : EReal) := by
  simp [Ideal.ofBits, Ideal.ieee, -EReal.coe_mul]; norm_num

/-- The scale 0.375 of the kernel's scores denotes the real 3/8. -/
theorem ofBits_three_eighths : Ideal.ofBits .f32 0x3EC00000#32 = ((3 / 8 : ℝ) : EReal) := by
  simp [Ideal.ofBits, Ideal.ieee, -EReal.coe_mul]; norm_num

/-- The reference's shift of its first normaliser denotes a positive real. -/
theorem ofBits_eps : ∃ r : ℝ, 0 < r ∧ Ideal.ofBits .f32 0x3089705F#32 = (r : EReal) := by
  refine ⟨(2 ^ 23 + 618591 : ℕ) * (2 : ℝ) ^ ((97 : ℤ) - 127 - 23), by positivity, ?_⟩
  simp [Ideal.ofBits, Ideal.ieee, -EReal.coe_mul]

/-! ## The masks -/

/-- The integer words 0 and 1 read as numbers. -/
theorem sitofp_zero : FloatOps.sitofp (F := Ideal) .f32 (0#32 : BitVec 32) = 0 := by
  show (((0#32 : BitVec 32).toInt : ℝ) : EReal) = 0
  rw [show (0#32 : BitVec 32).toInt = 0 from by decide]; simp
theorem sitofp_one : FloatOps.sitofp (F := Ideal) .f32 (1#32 : BitVec 32) = 1 := by
  show (((1#32 : BitVec 32).toInt : ℝ) : EReal) = 1
  rw [show (1#32 : BitVec 32).toInt = 1 from by decide]; simp

/-- For mask words that are 0 or 1, the number of the smaller word is the smaller of the two numbers, and it is 0 or 1. -/
theorem mask_min {x y : BitVec 32} (hx : x = 0#32 ∨ x = 1#32) (hy : y = 0#32 ∨ y = 1#32) :
    FloatOps.sitofp (F := Ideal) .f32 (IntOp.minsi x y)
        = min (FloatOps.sitofp (F := Ideal) .f32 y) (FloatOps.sitofp (F := Ideal) .f32 x)
      ∧ (FloatOps.sitofp (F := Ideal) .f32 (IntOp.minsi x y) = 0
          ∨ FloatOps.sitofp (F := Ideal) .f32 (IntOp.minsi x y) = 1) := by
  have h00 : IntOp.minsi (0#32 : BitVec 32) 0#32 = 0#32 := by decide
  have h01 : IntOp.minsi (0#32 : BitVec 32) 1#32 = 0#32 := by decide
  have h10 : IntOp.minsi (1#32 : BitVec 32) 0#32 = 0#32 := by decide
  have h11 : IntOp.minsi (1#32 : BitVec 32) 1#32 = 1#32 := by decide
  have hle : (0 : EReal) ≤ 1 := zero_le_one
  rcases hx with rfl | rfl <;> rcases hy with rfl | rfl
  · rw [h00, sitofp_zero]; exact ⟨(min_self _).symm, Or.inl rfl⟩
  · rw [h01, sitofp_zero, sitofp_one]; exact ⟨(min_eq_right hle).symm, Or.inl rfl⟩
  · rw [h10, sitofp_zero, sitofp_one]; exact ⟨(min_eq_left hle).symm, Or.inl rfl⟩
  · rw [h11, sitofp_one]; exact ⟨(min_self _).symm, Or.inr rfl⟩

/-- A key mask laid out 8 × 2048 × 1 and transposed to 8 × 1 × 2048 reads its entry (b, j) at (b, 0, j). -/
theorem transpose_mask_apply {α : Type} (x : ShQM.Idx → α) (h : ShQM.Transposes [0, 2, 1] ShKM) (b : Fin 8) (j : Fin 2048) :
    transpose ShKM [0, 2, 1] x h (ix3 b 0 j) = x (ix3 b j 0) :=
  transpose_apply [0, 2, 1] x h (ix3 b 0 j) (ix3 b j 0) (fun a => match a with
    | ⟨0, _⟩ => rfl
    | ⟨1, _⟩ => rfl
    | ⟨2, _⟩ => rfl)

end Cert.PowerAttn

end
-- ==== Proof.KernelBlock.lean ====
/-
  What the kernel's body computes from the blocks it loads, read at an index, on the extended reals.

  From a 1×1024×64 block Q of queries, a 1×2048×64 block K of keys, a 1×1024×1 column of query masks and a 1×1×2048 row
  of key masks, the body forms for row r the scores s_k = (Σ_d Q(r, d) · K(k, d)) · 0.375, the mask
  μ_k = min(qmask(r), kmask(k)), and stores row r of the one-stage masked softmax: exp(s_k − max s) · μ_k over the sum of
  these weights. Its second store is that block times the block of values: entry (r, d) is Σ_k (first store)(r, k) · V(k, d).
-/
import proofs.«152501_j80573586473568_1_alg».proof.Proof.Gen.KernelIdeal.Skeleton
import proofs.«152501_j80573586473568_1_alg».proof.Proof.LibBlockReads
import proofs.«152501_j80573586473568_1_alg».proof.Proof.LibRowReductions
import proofs.«152501_j80573586473568_1_alg».proof.Proof.PowerSoftmax
import proofs.«152501_j80573586473568_1_alg».proof.Proof.AttnSpec
import Idealize.ShloMosaic.Lib.ValueIdx
import Idealize.ShloMosaic.Lib.Pipeline.Value
import Idealize.ShloMosaic.Lib.ValueLayout

open scoped BigOperators

noncomputable section

namespace Cert.KernelIdeal.Block

open Cert.KernelIdeal Cert.KernelIdeal.Gen Idealize.ShloMosaic Idealize.ShloMosaic.ValueIdx
open Cert.Lib.BlockReads Cert.Lib.RowReductions Cert.PowerAttn

/-- The scaled scores of a block of queries against a block of keys, as the body spells them. -/
def scores (P0 : Vec Ideal S1x1024x64 .f32) (P1 : Vec Ideal S1x2048x64 .f32) : FVec Ideal S1024x2048 .f32 :=
  mulf (matmul dot_S1024x64_S2048x64_S1024x2048_1_1_0_0_n_n none
      (shapeCast S1024x64 P0 Facts₀.shapeCasts_S1x1024x64_S1024x64 : FVec Ideal S1024x64 .f32)
      (shapeCast S2048x64 P1 Facts₀.shapeCasts_S1x2048x64_S2048x64 : FVec Ideal S2048x64 .f32)
      (constant S1024x2048 .f32 0x00000000#32))
    (broadcast S1024x2048 (Scalar.ofBits (F := Ideal) .f32 0x3EC00000#32))

/-- The combined mask of a column of query masks and a row of key masks, as the body spells it. -/
def maskOf (P2 : Vec Ideal S1x1024x1 .f32) (P3 : Vec Ideal S1x1x2048 .f32) : FVec Ideal S1024x2048 .f32 :=
  minimumf (broadcastTo S1024x2048 (shapeCast S1024x1 P2 Facts₀.shapeCasts_S1x1024x1_S1024x1 : FVec Ideal S1024x1 .f32)
      Facts₀.broadcasts_S1024x1_S1024x2048 : FVec Ideal S1024x2048 .f32)
    (broadcastTo S1024x2048 (shapeCast S1x2048 P3 Facts₀.shapeCasts_S1x1x2048_S1x2048 : FVec Ideal S1x2048 .f32)
      Facts₀.broadcasts_S1x2048_S1024x2048 : FVec Ideal S1024x2048 .f32)

/-- Each row's maximum put back beside the block, as the body spells it. -/
def rowMaxB (X : FVec Ideal S1024x2048 .f32) : FVec Ideal S1024x2048 .f32 :=
  broadcastTo S1024x2048 (shapeCast S1024x1
      (multiReduction .maximumf [1] S1024 X 0xFF800000#32 Facts₀.reduces_S1024x2048_S1024 (.inl rfl) rfl)
      Facts₀.shapeCasts_S1024_S1024x1) Facts₀.broadcasts_S1024x1_S1024x2048

/-- Each row's sum put back beside the block, as the body spells it. -/
def rowSumB (X : FVec Ideal S1024x2048 .f32) : FVec Ideal S1024x2048 .f32 :=
  broadcastTo S1024x2048 (shapeCast S1024x1
      (multiReduction .add [1] S1024 X 0x00000000#32 Facts₀.reduces_S1024x2048_S1024 (.inl rfl) rfl)
      Facts₀.shapeCasts_S1024_S1024x1) Facts₀.broadcasts_S1024x1_S1024x2048

/-- The weights exp(s − rowmax s) · mask of a block, as the body spells them. -/
def weights (P0 : Vec Ideal S1x1024x64 .f32) (P1 : Vec Ideal S1x2048x64 .f32) (P2 : Vec Ideal S1x1024x1 .f32)
    (P3 : Vec Ideal S1x1x2048 .f32) : FVec Ideal S1024x2048 .f32 :=
  mulf (exp (subf (scores P0 P1) (rowMaxB (scores P0 P1)))) (maskOf P2 P3)

set_option maxRecDepth 65536 in
/-- The body's first stored value is the weights over their row sums. -/
theorem pay2_eq (P0 : Vec Ideal S1x1024x64 .f32) (P1 : Vec Ideal S1x2048x64 .f32) (P2 : Vec Ideal S1x1024x1 .f32)
    (P3 : Vec Ideal S1x1x2048 .f32) :
    k0_pay2 (F := Ideal) P0 P1 P2 P3 = divf (weights P0 P1 P2 P3) (rowSumB (weights P0 P1 P2 P3)) := rfl

/-- A 1×a×b block read as an a×b matrix. -/
theorem cast3_apply {α : Type} {a b : Nat} (x : (⟨3, ![1, a, b]⟩ : Shape).Idx → α)
    (h : (⟨3, ![1, a, b]⟩ : Shape).ShapeCasts ⟨2, ![a, b]⟩) (p : Fin a) (q : Fin b) :
    shapeCast ⟨2, ![a, b]⟩ x h (ix2 p q) = x (ix3 0 p q) := by
  refine shapeCast_apply x h _ _ ?_
  rw [Shape.rowMajor_val_two, Shape.rowMajor_val_three]
  show ((0 : Nat) * a + p.val) * b + q.val = p.val * b + q.val
  rw [Nat.zero_mul, Nat.zero_add]

/-- The scaled score of query row r against key row k. -/
theorem scores_apply (P0 : Vec Ideal S1x1024x64 .f32) (P1 : Vec Ideal S1x2048x64 .f32) (r : Fin 1024) (k : Fin 2048) :
    scores P0 P1 (ix2 r k)
      = (∑ d : Fin 64, P0 (ix3 0 r d) * P1 (ix3 0 k d)) * Ideal.ofBits .f32 0x3EC00000#32 := by
  unfold scores
  rw [mulf_apply, broadcast_apply,
    matmul_zero_cols_apply dot_S1024x64_S2048x64_S1024x2048_1_1_0_0_n_n rfl rfl rfl rfl rfl rfl]
  refine congrArg (· * _) (Finset.sum_congr rfl fun d _ => ?_)
  rw [cast3_apply, cast3_apply]

/-- The combined mask at (r, k). -/
theorem maskOf_apply (P2 : Vec Ideal S1x1024x1 .f32) (P3 : Vec Ideal S1x1x2048 .f32) (r : Fin 1024) (k : Fin 2048) :
    maskOf P2 P3 (ix2 r k) = min (P2 (ix3 0 r 0)) (P3 (ix3 0 0 k)) := by
  unfold maskOf
  show min (broadcastTo S1024x2048 _ _ (ix2 r k)) (broadcastTo S1024x2048 _ _ (ix2 r k)) = _
  rw [broadcast_col_apply, broadcast_row_apply, cast3_apply, cast3_apply]

/-- The row maximum beside the block, at (r, k): the running maximum from −∞ over row r. -/
theorem rowMaxB_apply (X : FVec Ideal S1024x2048 .f32) (r : Fin 1024) (k : Fin 2048) :
    rowMaxB X (ix2 r k) = (Finset.univ : Finset (Fin 2048)).fold max ⊥ (fun l => X (ix2 r l)) := by
  unfold rowMaxB
  rw [broadcast_col_apply, shapeCast_col_apply]
  refine (rowmax_apply X _ _ _ _ r).trans ?_
  exact congrArg (fun b => Finset.fold max b (fun l => X (ix2 r l)) Finset.univ) ofBits_neg_inf_f32

/-- The row sum beside the block, at (r, k): the sum over row r. -/
theorem rowSumB_apply (X : FVec Ideal S1024x2048 .f32) (r : Fin 1024) (k : Fin 2048) :
    rowSumB X (ix2 r k) = ∑ l : Fin 2048, X (ix2 r l) := by
  unfold rowSumB
  rw [broadcast_col_apply, shapeCast_col_apply]
  exact rowsum_apply X _ _ _ _ r

/-- The score row and the mask row of query row r. -/
abbrev blkScores (P0 : Vec Ideal S1x1024x64 .f32) (P1 : Vec Ideal S1x2048x64 .f32) (r : Fin 1024) : Fin 2048 → EReal :=
  fun k => (∑ d : Fin 64, P0 (ix3 0 r d) * P1 (ix3 0 k d)) * Ideal.ofBits .f32 0x3EC00000#32
abbrev blkMask (P2 : Vec Ideal S1x1024x1 .f32) (P3 : Vec Ideal S1x1x2048 .f32) (r : Fin 1024) : Fin 2048 → EReal :=
  fun k => min (P2 (ix3 0 r 0)) (P3 (ix3 0 0 k))

/-- The weight at (r, k) is the weight of column k in row r's scores under row r's mask. -/
theorem weights_apply (P0 : Vec Ideal S1x1024x64 .f32) (P1 : Vec Ideal S1x2048x64 .f32) (P2 : Vec Ideal S1x1024x1 .f32)
    (P3 : Vec Ideal S1x1x2048 .f32) (r : Fin 1024) (k : Fin 2048) :
    weights P0 P1 P2 P3 (ix2 r k) = weight (blkScores P0 P1 r) (blkMask P2 P3 r) k := by
  unfold weights weight
  show Ideal.exp (scores P0 P1 (ix2 r k) - rowMaxB (scores P0 P1) (ix2 r k)) * maskOf P2 P3 (ix2 r k) = _
  rw [rowMaxB_apply, maskOf_apply, scores_apply]
  have hrow : (fun l => scores P0 P1 (ix2 r l)) = blkScores P0 P1 r := funext fun l => scores_apply P0 P1 r l
  rw [hrow]

/-- THE FIRST STORE at (r, j): entry j of the one-stage masked softmax of row r. -/
theorem pay2_apply (P0 : Vec Ideal S1x1024x64 .f32) (P1 : Vec Ideal S1x2048x64 .f32) (P2 : Vec Ideal S1x1024x1 .f32)
    (P3 : Vec Ideal S1x1x2048 .f32) (r : Fin 1024) (j : Fin 2048) :
    k0_pay2 (F := Ideal) P0 P1 P2 P3 (ix2 r j) = softRow (blkScores P0 P1 r) (blkMask P2 P3 r) j := by
  rw [pay2_eq, divf_apply, rowSumB_apply, weights_apply]
  unfold softRow
  exact congrArg (Ideal.div _) (Finset.sum_congr rfl fun l _ => weights_apply P0 P1 P2 P3 r l)

/-- THE SECOND STORE at (r, d): the first store's row r against column d of the block of values. -/
theorem pay4_apply (P0 : Vec Ideal S1x1024x64 .f32) (P1 : Vec Ideal S1x2048x64 .f32) (P2 : Vec Ideal S1x1024x1 .f32)
    (P3 : Vec Ideal S1x1x2048 .f32) (P4 : Vec Ideal S1x2048x64 .f32) (r : Fin 1024) (d : Fin 64) :
    k0_pay4 (F := Ideal) P0 P1 P2 P3 P4 (ix2 r d)
      = ∑ k : Fin 2048, k0_pay2 (F := Ideal) P0 P1 P2 P3 (ix2 r k) * P4 (ix3 0 k d) := by
  unfold k0_pay4
  rw [matmul_zero_rows_apply dot_S1024x2048_S2048x64_S1024x64_1_0_0_1_n_n rfl rfl rfl rfl rfl rfl]
  refine Finset.sum_congr rfl fun k _ => ?_
  rw [truncf_apply, truncf_apply, cast3_apply]

/-! ## The stores as entries of the whole-array functions

The blocks are given as variables, with the rows of the arrays they hold as hypotheses: a block of queries and of query
masks holds the rows around query (i 0, i 1), the blocks of keys, key masks and values hold batch i 0 whole. -/

/-- The first store at x is the attention matrix at i, when x's row holds query (i 0, i 1) and x's column is key i 2. -/
theorem pay2_at (P0 : Vec Ideal S1x1024x64 .f32) (P1 : Vec Ideal S1x2048x64 .f32) (P2 : Vec Ideal S1x1024x1 .f32)
    (P3 : Vec Ideal S1x1x2048 .f32) (q k : ShQ.Idx → EReal) (qm : ShQM.Idx → EReal) (km : ShKM.Idx → EReal)
    (x : S1024x2048.Idx) (i : ShT.Idx)
    (hq : ∀ d : Fin 64, P0 (ix3 0 (x 0) d) = q (ix3 (i 0) (i 1) d))
    (hk : ∀ (j : Fin 2048) (d : Fin 64), P1 (ix3 0 j d) = k (ix3 (i 0) j d))
    (hqm : P2 (ix3 0 (x 0) 0) = qm (ix3 (i 0) (i 1) 0))
    (hkm : ∀ j : Fin 2048, P3 (ix3 0 0 j) = km (ix3 (i 0) 0 j))
    (hj : (x 1).val = (i 2).val) :
    k0_pay2 (F := Ideal) P0 P1 P2 P3 x = attnT q k qm km i := by
  obtain ⟨r, j, rfl⟩ : ∃ (r : Fin 1024) (j : Fin 2048), x = ix2 r j := ⟨x 0, x 1, eq_ix2 x⟩
  have hq' : ∀ d : Fin 64, P0 (ix3 0 r d) = q (ix3 (i 0) (i 1) d) := hq
  have hqm' : P2 (ix3 0 r 0) = qm (ix3 (i 0) (i 1) 0) := hqm
  have hj' : j = i 2 := Fin.ext hj
  rw [pay2_apply]
  unfold attnT
  rw [← hj']
  have e1 : blkScores P0 P1 r = Cert.PowerAttn.scoreRow q k (i 0) (i 1) := funext fun j' => by
    show (∑ d : Fin 64, P0 (ix3 0 r d) * P1 (ix3 0 j' d)) * _
      = (∑ d : Fin 64, q (ix3 (i 0) (i 1) d) * k (ix3 (i 0) j' d)) * _
    simp only [hq', hk]
  have e2 : blkMask P2 P3 r = Cert.PowerAttn.maskRow qm km (i 0) (i 1) := funext fun j' => by
    show min (P2 (ix3 0 r 0)) (P3 (ix3 0 0 j')) = min (qm (ix3 (i 0) (i 1) 0)) (km (ix3 (i 0) 0 j'))
    rw [hqm', hkm]
  rw [e1, e2]

/-- The second store at x is the attention output at i, when moreover x's column of the block of values is column i 2
    of the values of batch i 0. -/
theorem pay4_at (P0 : Vec Ideal S1x1024x64 .f32) (P1 : Vec Ideal S1x2048x64 .f32) (P2 : Vec Ideal S1x1024x1 .f32)
    (P3 : Vec Ideal S1x1x2048 .f32) (P4 : Vec Ideal S1x2048x64 .f32) (q k v : ShQ.Idx → EReal) (qm : ShQM.Idx → EReal)
    (km : ShKM.Idx → EReal) (x : S1024x64.Idx) (i : ShQ.Idx)
    (hq : ∀ d : Fin 64, P0 (ix3 0 (x 0) d) = q (ix3 (i 0) (i 1) d))
    (hk : ∀ (j : Fin 2048) (d : Fin 64), P1 (ix3 0 j d) = k (ix3 (i 0) j d))
    (hqm : P2 (ix3 0 (x 0) 0) = qm (ix3 (i 0) (i 1) 0))
    (hkm : ∀ j : Fin 2048, P3 (ix3 0 0 j) = km (ix3 (i 0) 0 j))
    (hv : ∀ j : Fin 2048, P4 (ix3 0 j (x 1)) = v (ix3 (i 0) j (i 2))) :
    k0_pay4 (F := Ideal) P0 P1 P2 P3 P4 x = attnF q k v qm km i := by
  obtain ⟨r, d, rfl⟩ : ∃ (r : Fin 1024) (d : Fin 64), x = ix2 r d := ⟨x 0, x 1, eq_ix2 x⟩
  have hv' : ∀ j : Fin 2048, P4 (ix3 0 j d) = v (ix3 (i 0) j (i 2)) := hv
  rw [pay4_apply]
  unfold attnF
  refine Finset.sum_congr rfl fun j _ => ?_
  rw [pay2_at P0 P1 P2 P3 q k qm km (ix2 r j) (ix3 (i 0) (i 1) j) hq hk hqm hkm rfl, hv' j]

end Cert.KernelIdeal.Block

end
-- ==== Proof.KernelArray.lean ====
/-
  From the kernel's blocks to its two result arrays, on the extended reals.

  At grid point t = (b, h) the windows hold: rows 1024·h … 1024·h + 1023 of batch b of the queries and of the query
  mask, and batch b whole of the keys, the values and the key mask; the point writes back rows 1024·h … of batch b of
  the attention matrix and of the output. Every entry the body stores is the corresponding entry of the whole-array
  functions attnT and attnF of the arrays as the region finds them; the sixteen blocks cover each result array; and the
  two masks the region finds are the integer masks converted (the key mask transposed first).
-/
import proofs.«152501_j80573586473568_1_alg».proof.Proof.Gen.KernelIdeal.Value
import proofs.«152501_j80573586473568_1_alg».proof.Proof.KernelBlock
import proofs.«152501_j80573586473568_1_alg».proof.Proof.AttnSpec
import Idealize.ShloMosaic.Lib.Pipeline.Value
import Idealize.ShloMosaic.Lib.StableHlo.Run

open scoped BigOperators

noncomputable section

namespace Cert.KernelIdeal.Array

open Cert.KernelIdeal Cert.KernelIdeal.Gen Cert.KernelIdeal.Value Cert.KernelIdeal.Block
open Idealize.ShloMosaic Idealize.ShloMosaic.TcCoe Idealize.SL.Sem Idealize.ShloMosaic.ValueIdx
open Idealize.ShloMosaic.Pipeline (Dat)
open Cert.PowerAttn

variable (m : (ℓ : Loc nD τ sig) → Buf (Elt Ideal) ℓ) (ρ : Dev nD → PrngReg)

theorem hz3 : (![0, 0, 0] : Fin 3 → Nat) = fun _ => 0 := funext fun a => by fin_cases a <;> rfl

/-- The block indices of the seven windows, decided over the sixteen grid points: the queries, the query mask and the
    two results move together (batch, half); the keys, the values and the key mask follow the batch only. -/
theorem idx_facts : ∀ t : Fin cfg0.N,
    win0_0.index t (0 : Fin 3) = win0_5.index t (0 : Fin 3) ∧ win0_0.index t (1 : Fin 3) = win0_5.index t (1 : Fin 3)
    ∧ win0_0.index t (2 : Fin 3) = 0
    ∧ win0_1.index t (0 : Fin 3) = win0_5.index t (0 : Fin 3) ∧ win0_1.index t (1 : Fin 3) = 0 ∧ win0_1.index t (2 : Fin 3) = 0
    ∧ win0_2.index t (0 : Fin 3) = win0_5.index t (0 : Fin 3) ∧ win0_2.index t (1 : Fin 3) = 0 ∧ win0_2.index t (2 : Fin 3) = 0
    ∧ win0_3.index t (0 : Fin 3) = win0_5.index t (0 : Fin 3) ∧ win0_3.index t (1 : Fin 3) = win0_5.index t (1 : Fin 3)
    ∧ win0_3.index t (2 : Fin 3) = 0
    ∧ win0_4.index t (0 : Fin 3) = win0_5.index t (0 : Fin 3) ∧ win0_4.index t (1 : Fin 3) = 0 ∧ win0_4.index t (2 : Fin 3) = 0
    ∧ win0_6.index t (0 : Fin 3) = win0_5.index t (0 : Fin 3) ∧ win0_6.index t (1 : Fin 3) = win0_5.index t (1 : Fin 3)
    ∧ win0_6.index t (2 : Fin 3) = 0
    ∧ win0_5.index t (0 : Fin 3) < 8 ∧ win0_5.index t (1 : Fin 3) < 2 ∧ win0_5.index t (2 : Fin 3) = 0 :=
  (by decide +kernel : ∀ t : Fin grid0.N, _)

/-- Every (batch, half) is some grid point's. -/
theorem idx_onto5 : ∀ (q0 : Fin 8) (q1 : Fin 2), ∃ t : Fin cfg0.N, win0_5.index t = ![q0.val, q1.val, 0] :=
  (by decide +kernel : ∀ (q0 : Fin 8) (q1 : Fin 2), ∃ t : Fin grid0.N, win0_5.index t = ![q0.val, q1.val, 0])
theorem idx_onto6 : ∀ (q0 : Fin 8) (q1 : Fin 2), ∃ t : Fin cfg0.N, win0_6.index t = ![q0.val, q1.val, 0] :=
  (by decide +kernel : ∀ (q0 : Fin 8) (q1 : Fin 2), ∃ t : Fin grid0.N, win0_6.index t = ![q0.val, q1.val, 0])

/-! ## The masks the region finds -/

/-- The query mask the region finds is the integer query mask converted. -/
theorem V_qmask (c : Dev nD) : (V m c main_v0 : S8x2048x1.Idx → EReal)
    = sitofp (F := Ideal) .f32 (m ((c : Thread nD τ).loc main_arg4) : IVec S8x2048x1 32) := by
  dsimp only [Gen.V, Gen.hostOps0]; after_results

/-- The key mask the region finds is the integer key mask transposed, then converted. -/
theorem V_kmask (c : Dev nD) : (V m c main_v2 : S8x1x2048.Idx → EReal)
    = sitofp (F := Ideal) .f32 (transpose S8x1x2048 [0, 2, 1] (m ((c : Thread nD τ).loc main_arg3) : IVec S8x2048x1 32)
        Facts₀.transposes_S8x2048x1_S8x1x2048_0_2_1) := by
  dsimp only [Gen.V, Gen.hostOps0]; after_results

/-! ## The attention matrix -/

/-- The attention matrix of the arrays as the region finds them. -/
abbrev T (c : Dev nD) : ShT.Idx → EReal :=
  attnT (V m c main_arg0 : S8x2048x64.Idx → EReal) (V m c main_arg1 : S8x2048x64.Idx → EReal)
    (V m c main_v0 : S8x2048x1.Idx → EReal) (V m c main_v2 : S8x1x2048.Idx → EReal)

/-- The attention output of the arrays as the region finds them. -/
abbrev O (c : Dev nD) : ShQ.Idx → EReal :=
  attnF (V m c main_arg0 : S8x2048x64.Idx → EReal) (V m c main_arg1 : S8x2048x64.Idx → EReal)
    (V m c main_arg2 : S8x2048x64.Idx → EReal) (V m c main_v0 : S8x2048x1.Idx → EReal) (V m c main_v2 : S8x1x2048.Idx → EReal)

/-- WHAT POINT t WRITES BACK to the attention matrix is block t of the attention matrix. -/
theorem flushed5_eq (c : Dev nD) (t : Fin cfg0.N) :
    (dats m 0 c).flushed 5 t = ((cfg0.win 5).blk t).view.read (Elt Ideal) (T m c) := by
  rw [flushed5]
  obtain ⟨a00, a01, a02, a10, a11, a12, a20, a21, a22, a30, a31, a32, a40, a41, a42, a60, a61, a62, b0, b1, b2⟩ := idx_facts t
  funext y
  have hy0 : (y 0).val < 1 := (y 0).isLt
  have hy1 : (y 1).val < 1024 := (y 1).isLt
  have hy2 : (y 2).val < 2048 := (y 2).isLt
  show out0_5 (iblk m c 0 t) (iblk m c 1 t) (iblk m c 2 t) (iblk m c 3 t) (iblk m c 4 t) y
    = T m c (((cfg0.win 5).blk t).view.emb y)
  unfold out0_5
  rw [canon5_eq]
  simp only [View.ld_unit_zero (S := S1x1024x64) hz3, View.ld_unit_zero (S := S1x2048x64) hz3,
    View.ld_unit_zero (S := S1x1024x1) hz3, View.ld_unit_zero (S := S1x1x2048) hz3]
  refine pay2_at (iblk m c 0 t) (iblk m c 1 t) (iblk m c 3 t) (iblk m c 4 t) _ _ _ _ (ix5_0 y)
    (((cfg0.win 5).blk t).view.emb y) ?_ ?_ ?_ ?_ ?_
  · intro d
    unfold iblk
    rw [View.read_apply]
    show V m c main_arg0 _ = V m c main_arg0 _
    refine congrArg (V m c main_arg0) ?_
    funext a; apply Fin.ext
    match a with
    | ⟨0, _⟩ => show win0_0.index t (0 : Fin 3) * 1 + 1 * 0 = win0_5.index t (0 : Fin 3) * 1 + 1 * (y 0).val; omega
    | ⟨1, _⟩ => show win0_0.index t (1 : Fin 3) * 1024 + 1 * (y 1).val = win0_5.index t (1 : Fin 3) * 1024 + 1 * (y 1).val; omega
    | ⟨2, _⟩ => show win0_0.index t (2 : Fin 3) * 64 + 1 * d.val = d.val; omega
  · intro j d
    unfold iblk
    rw [View.read_apply]
    show V m c main_arg1 _ = V m c main_arg1 _
    refine congrArg (V m c main_arg1) ?_
    funext a; apply Fin.ext
    match a with
    | ⟨0, _⟩ => show win0_1.index t (0 : Fin 3) * 1 + 1 * 0 = win0_5.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * d.val = d.val; omega
  · unfold iblk
    rw [View.read_apply]
    show V m c main_v0 _ = V m c main_v0 _
    refine congrArg (V m c main_v0) ?_
    funext a; apply Fin.ext
    match a with
    | ⟨0, _⟩ => show win0_3.index t (0 : Fin 3) * 1 + 1 * 0 = win0_5.index t (0 : Fin 3) * 1 + 1 * (y 0).val; omega
    | ⟨1, _⟩ => show win0_3.index t (1 : Fin 3) * 1024 + 1 * (y 1).val = win0_5.index t (1 : Fin 3) * 1024 + 1 * (y 1).val; omega
    | ⟨2, _⟩ => show win0_3.index t (2 : Fin 3) * 1 + 1 * 0 = 0; omega
  · intro j
    unfold iblk
    rw [View.read_apply]
    show V m c main_v2 _ = V m c main_v2 _
    refine congrArg (V m c main_v2) ?_
    funext a; apply Fin.ext
    match a with
    | ⟨0, _⟩ => show win0_4.index t (0 : Fin 3) * 1 + 1 * 0 = win0_5.index t (0 : Fin 3) * 1 + 1 * (y 0).val; omega
    | ⟨1, _⟩ => show win0_4.index t (1 : Fin 3) * 1 + 1 * 0 = 0; omega
    | ⟨2, _⟩ => show win0_4.index t (2 : Fin 3) * 2048 + 1 * j.val = j.val; omega
  · show (y 2).val = win0_5.index t (2 : Fin 3) * 2048 + 1 * (y 2).val
    omega

/-- An index of the attention matrix is in point t's block iff each coordinate is in the block's range on its axis. -/
theorem mem_blk5 (t : Fin cfg0.N) (i : S8x2048x2048.Idx) :
    i ∈ ((cfg0.win 5).blk t).view.set ↔ ∀ a : Fin 3, win0_5.index t a * S1x1024x2048.size a ≤ (i a).val
      ∧ (i a).val < win0_5.index t a * S1x1024x2048.size a + S1x1024x2048.size a := by
  show i ∈ ((View.whole main_v3_0).slice (win0_5.rect t)).set ↔ _
  rw [View.set_slice_whole, Rect.mem_set_unit]
  exact Iff.rfl

/-- The sixteen blocks cover the attention matrix. -/
theorem cover5 (i : S8x2048x2048.Idx) :
    ∃ t : Fin cfg0.N, (cfg0.win 5).flush t = true ∧ i ∈ ((cfg0.win 5).blk t).view.set := by
  have hi0 : (i 0).val < 8 := (i 0).isLt
  have hi1 : (i 1).val < 2048 := (i 1).isLt
  have hi2 : (i 2).val < 2048 := (i 2).isLt
  obtain ⟨t, ht⟩ := idx_onto5 ⟨(i 0).val, hi0⟩ ⟨(i 1).val / 1024, by omega⟩
  have q0 : win0_5.index t (0 : Fin 3) = (i 0).val := congrFun ht 0
  have q1 : win0_5.index t (1 : Fin 3) = (i 1).val / 1024 := congrFun ht 1
  have q2 : win0_5.index t (2 : Fin 3) = 0 := congrFun ht 2
  refine ⟨t, flush0_5 t, ?_⟩
  rw [mem_blk5]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 1024 ≤ (i 1).val ∧ (i 1).val < win0_5.index t (1 : Fin 3) * 1024 + 1024; omega
  | ⟨2, _⟩ => show win0_5.index t (2 : Fin 3) * 2048 ≤ (i 2).val ∧ (i 2).val < win0_5.index t (2 : Fin 3) * 2048 + 2048; omega

/-- The attention matrix after the run. -/
theorem final5 (c : Dev nD) : (dats m 0 c).arrAt 5 cfg0.N = T m c :=
  (dats m 0 c).arrAt_eq_of_cover 5 (T m c) (fun t _ => flushed5_eq m c t) cover5

/-! ## The attention output -/

/-- WHAT POINT t WRITES BACK to the output is block t of the attention output. -/
theorem flushed6_eq (c : Dev nD) (t : Fin cfg0.N) :
    (dats m 0 c).flushed 6 t = ((cfg0.win 6).blk t).view.read (Elt Ideal) (O m c) := by
  rw [flushed6]
  obtain ⟨a00, a01, a02, a10, a11, a12, a20, a21, a22, a30, a31, a32, a40, a41, a42, a60, a61, a62, b0, b1, b2⟩ := idx_facts t
  funext y
  have hy0 : (y 0).val < 1 := (y 0).isLt
  have hy1 : (y 1).val < 1024 := (y 1).isLt
  have hy2 : (y 2).val < 64 := (y 2).isLt
  show out0_6 (iblk m c 0 t) (iblk m c 1 t) (iblk m c 2 t) (iblk m c 3 t) (iblk m c 4 t) y
    = O m c (((cfg0.win 6).blk t).view.emb y)
  unfold out0_6
  rw [canon6_eq]
  simp only [View.ld_unit_zero (S := S1x1024x64) hz3, View.ld_unit_zero (S := S1x2048x64) hz3,
    View.ld_unit_zero (S := S1x1024x1) hz3, View.ld_unit_zero (S := S1x1x2048) hz3]
  refine pay4_at (iblk m c 0 t) (iblk m c 1 t) (iblk m c 3 t) (iblk m c 4 t) (iblk m c 2 t) _ _ _ _ _ (ix6_0 y)
    (((cfg0.win 6).blk t).view.emb y) ?_ ?_ ?_ ?_ ?_
  · intro d
    unfold iblk
    rw [View.read_apply]
    show V m c main_arg0 _ = V m c main_arg0 _
    refine congrArg (V m c main_arg0) ?_
    funext a; apply Fin.ext
    match a with
    | ⟨0, _⟩ => show win0_0.index t (0 : Fin 3) * 1 + 1 * 0 = win0_6.index t (0 : Fin 3) * 1 + 1 * (y 0).val; omega
    | ⟨1, _⟩ => show win0_0.index t (1 : Fin 3) * 1024 + 1 * (y 1).val = win0_6.index t (1 : Fin 3) * 1024 + 1 * (y 1).val; omega
    | ⟨2, _⟩ => show win0_0.index t (2 : Fin 3) * 64 + 1 * d.val = d.val; omega
  · intro j d
    unfold iblk
    rw [View.read_apply]
    show V m c main_arg1 _ = V m c main_arg1 _
    refine congrArg (V m c main_arg1) ?_
    funext a; apply Fin.ext
    match a with
    | ⟨0, _⟩ => show win0_1.index t (0 : Fin 3) * 1 + 1 * 0 = win0_6.index t (0 : Fin 3) * 1 + 1 * (y 0).val; omega
    | ⟨1, _⟩ => show win0_1.index t (1 : Fin 3) * 2048 + 1 * j.val = j.val; omega
    | ⟨2, _⟩ => show win0_1.index t (2 : Fin 3) * 64 + 1 * d.val = d.val; omega
  · unfold iblk
    rw [View.read_apply]
    show V m c main_v0 _ = V m c main_v0 _
    refine congrArg (V m c main_v0) ?_
    funext a; apply Fin.ext
    match a with
    | ⟨0, _⟩ => show win0_3.index t (0 : Fin 3) * 1 + 1 * 0 = win0_6.index t (0 : Fin 3) * 1 + 1 * (y 0).val; omega
    | ⟨1, _⟩ => show win0_3.index t (1 : Fin 3) * 1024 + 1 * (y 1).val = win0_6.index t (1 : Fin 3) * 1024 + 1 * (y 1).val; omega
    | ⟨2, _⟩ => show win0_3.index t (2 : Fin 3) * 1 + 1 * 0 = 0; omega
  · intro j
    unfold iblk
    rw [View.read_apply]
    show V m c main_v2 _ = V m c main_v2 _
    refine congrArg (V m c main_v2) ?_
    funext a; apply Fin.ext
    match a with
    | ⟨0, _⟩ => show win0_4.index t (0 : Fin 3) * 1 + 1 * 0 = win0_6.index t (0 : Fin 3) * 1 + 1 * (y 0).val; omega
    | ⟨1, _⟩ => show win0_4.index t (1 : Fin 3) * 1 + 1 * 0 = 0; omega
    | ⟨2, _⟩ => show win0_4.index t (2 : Fin 3) * 2048 + 1 * j.val = j.val; omega
  · intro j
    unfold iblk
    rw [View.read_apply]
    show V m c main_arg2 _ = V m c main_arg2 _
    refine congrArg (V m c main_arg2) ?_
    funext a; apply Fin.ext
    match a with
    | ⟨0, _⟩ => show win0_2.index t (0 : Fin 3) * 1 + 1 * 0 = win0_6.index t (0 : Fin 3) * 1 + 1 * (y 0).val; omega
    | ⟨1, _⟩ => show win0_2.index t (1 : Fin 3) * 2048 + 1 * j.val = j.val; omega
    | ⟨2, _⟩ => show win0_2.index t (2 : Fin 3) * 64 + 1 * (y 2).val = win0_6.index t (2 : Fin 3) * 64 + 1 * (y 2).val; omega

theorem mem_blk6 (t : Fin cfg0.N) (i : S8x2048x64.Idx) :
    i ∈ ((cfg0.win 6).blk t).view.set ↔ ∀ a : Fin 3, win0_6.index t a * S1x1024x64.size a ≤ (i a).val
      ∧ (i a).val < win0_6.index t a * S1x1024x64.size a + S1x1024x64.size a := by
  show i ∈ ((View.whole main_v3_1).slice (win0_6.rect t)).set ↔ _
  rw [View.set_slice_whole, Rect.mem_set_unit]
  exact Iff.rfl

/-- The sixteen blocks cover the output. -/
theorem cover6 (i : S8x2048x64.Idx) :
    ∃ t : Fin cfg0.N, (cfg0.win 6).flush t = true ∧ i ∈ ((cfg0.win 6).blk t).view.set := by
  have hi0 : (i 0).val < 8 := (i 0).isLt
  have hi1 : (i 1).val < 2048 := (i 1).isLt
  have hi2 : (i 2).val < 64 := (i 2).isLt
  obtain ⟨t, ht⟩ := idx_onto6 ⟨(i 0).val, hi0⟩ ⟨(i 1).val / 1024, by omega⟩
  have q0 : win0_6.index t (0 : Fin 3) = (i 0).val := congrFun ht 0
  have q1 : win0_6.index t (1 : Fin 3) = (i 1).val / 1024 := congrFun ht 1
  have q2 : win0_6.index t (2 : Fin 3) = 0 := congrFun ht 2
  refine ⟨t, flush0_6 t, ?_⟩
  rw [mem_blk6]
  intro a
  match a with
  | ⟨0, _⟩ => show win0_6.index t (0 : Fin 3) * 1 ≤ (i 0).val ∧ (i 0).val < win0_6.index t (0 : Fin 3) * 1 + 1; omega
  | ⟨1, _⟩ => show win0_6.index t (1 : Fin 3) * 1024 ≤ (i 1).val ∧ (i 1).val < win0_6.index t (1 : Fin 3) * 1024 + 1024; omega
  | ⟨2, _⟩ => show win0_6.index t (2 : Fin 3) * 64 ≤ (i 2).val ∧ (i 2).val < win0_6.index t (2 : Fin 3) * 64 + 64; omega

/-- The output after the run. -/
theorem final6 (c : Dev nD) : (dats m 0 c).arrAt 6 cfg0.N = O m c :=
  (dats m 0 c).arrAt_eq_of_cover 6 (O m c) (fun t _ => flushed6_eq m c t) cover6

/-! ## The run, read -/

/-- The attention matrix and output of the arguments: queries, keys, values as launched, the query mask converted, the
    key mask transposed and converted. -/
abbrev Tm (c : Dev nD) : ShT.Idx → EReal :=
  attnT (m ((c : Thread nD τ).loc main_arg0) : S8x2048x64.Idx → EReal) (m ((c : Thread nD τ).loc main_arg1) : S8x2048x64.Idx → EReal)
    (sitofp (F := Ideal) .f32 (m ((c : Thread nD τ).loc main_arg4) : IVec S8x2048x1 32))
    (sitofp (F := Ideal) .f32 (transpose S8x1x2048 [0, 2, 1] (m ((c : Thread nD τ).loc main_arg3) : IVec S8x2048x1 32)
        Facts₀.transposes_S8x2048x1_S8x1x2048_0_2_1))
abbrev Om (c : Dev nD) : ShQ.Idx → EReal :=
  attnF (m ((c : Thread nD τ).loc main_arg0) : S8x2048x64.Idx → EReal) (m ((c : Thread nD τ).loc main_arg1) : S8x2048x64.Idx → EReal)
    (m ((c : Thread nD τ).loc main_arg2) : S8x2048x64.Idx → EReal)
    (sitofp (F := Ideal) .f32 (m ((c : Thread nD τ).loc main_arg4) : IVec S8x2048x1 32))
    (sitofp (F := Ideal) .f32 (transpose S8x1x2048 [0, 2, 1] (m ((c : Thread nD τ).loc main_arg3) : IVec S8x2048x1 32)
        Facts₀.transposes_S8x2048x1_S8x1x2048_0_2_1))

theorem T_eq (c : Dev nD) : T m c = Tm m c := by
  unfold T Tm
  rw [V_qmask, V_kmask, V_main_arg0, V_main_arg1]

theorem O_eq (c : Dev nD) : O m c = Om m c := by
  unfold O Om
  rw [V_qmask, V_kmask, V_main_arg0, V_main_arg1, V_main_arg2]

/-- The kernel's run: the output and the attention matrix end at the whole-array functions of the arguments, the
    arguments unchanged. -/
theorem run : θ_run defs (onTc (τ := τ) (main (F := Ideal))) ⟨m, fun _ => 0, ρ⟩ fun r => ∀ c : Dev nD,
      r.2.mem ((c : Thread nD τ).loc main_v3_1) = Om m c
      ∧ r.2.mem ((c : Thread nD τ).loc main_v3_0) = Tm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c =>
      ⟨(h c).2.1.trans ((final6 m c).trans (O_eq m c)), (h c).1.trans ((final5 m c).trans (T_eq m c)), (h c).2.2⟩)
    (run_blocks m ρ)

end Cert.KernelIdeal.Array

end
-- ==== Proof.LibBatchRows.lean ====
/-
  The reference's one-operand maximum-reduce along the LAST axis of a rank-3 a×b×c array, read at (p, q), on the extended
  reals: the fold of max, from the initial value's element, over the entries (p, q, k) — the rank-3 neighbour of the
  row maximum of a matrix. Nothing here mentions a program.
-/
import Idealize.ShloMosaic.PureOps.Ideal
import Idealize.ShloMosaic.PureOps.Ideal.Laws
import Idealize.ShloMosaic.PureOps.Reduce
import Idealize.ShloMosaic.Lib.ValueIdx

namespace Cert.Lib.BatchRows

open Idealize.ShloMosaic Idealize.ShloMosaic.ValueIdx

variable {a b c : Nat}

/-- The index (p, q) of the reduced array with the coordinate k of the last axis put back is (p, q, k). -/
theorem lift_last3 (h : (⟨3, ![a, b, c]⟩ : Shape).Reduces [2] ⟨2, ![a, b]⟩) (p : Fin a) (q : Fin b)
    (k : Fin ((⟨3, ![a, b, c]⟩ : Shape).size 2)) : h.lift (ix2 p q) k = ix3 p q (⟨k.val, k.isLt⟩ : Fin c) := by
  funext ax; apply Fin.ext
  match ax with
  | ⟨0, _⟩ => rfl
  | ⟨1, _⟩ => rfl
  | ⟨2, _⟩ => rfl

/-- The reference's reduce with a maximum body along the last axis of an a×b×c array is at (p, q) the fold of max, from
    the initial value's element, over the entries (p, q, k). -/
theorem host_lastmax3_apply {u : Shape} (x : (⟨3, ![a, b, c]⟩ : Shape).Idx → Ideal .f32) (init : u.Idx → Ideal .f32)
    (h' : (⟨3, ![a, b, c]⟩ : Shape).ReducesTo [2] ⟨2, ![a, b]⟩) (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  have h : (⟨3, ![a, b, c]⟩ : Shape).Reduces [2] ⟨2, ![a, b]⟩ := ⟨h'.1, Nat.zero_lt_two, h'.2⟩
  rw [Host.reduce_eq_fold_single FloatOps.maximumf x init h' h hu]
  have hf : (x ∘ h.lift (ix2 p q)) = fun k : Fin c => x (ix3 p q k) :=
    funext fun k => congrArg x (lift_last3 h p q k)
  exact congrArg (fun f => Finset.fold max (init (Shape.Idx.first hu)) f (Finset.univ : Finset (Fin c))) hf

end Cert.Lib.BatchRows
-- ==== Proof.RefRows.lean ====
/-
  The reference program read row by row, on the extended reals, and joined to the attention matrix of the specification.

  Its attention matrix at (b, p, j) is entry j of the two-stage row over the scores w_k = (Σ_d q(b, p, d) · k(b, k, d)) / 8
  under the mask μ_k = (the smaller of the mask words of key k and of query p, as a number), the first stage shifted by
  the literal ε; its output at (b, p, d) is Σ_k (that matrix)(b, p, k) · v(b, k, d). When q and k hold reals and the mask
  words are 0 or 1, the two-stage row is the one-stage row of the specification (the law of PowerSoftmax), the mask of
  the smaller word is the smaller of the two masks, and so the two matrices, and with them the two outputs, agree.
-/
import proofs.«152501_j80573586473568_1_alg».proof.Proof.Gen.ReferenceIdeal.Read
import proofs.«152501_j80573586473568_1_alg».proof.Proof.AttnSpec
import proofs.«152501_j80573586473568_1_alg».proof.Proof.LibRowReductions
import proofs.«152501_j80573586473568_1_alg».proof.Proof.LibBatchRows

open scoped BigOperators

noncomputable section

namespace Cert.ReferenceIdeal.Rows

open Cert.ReferenceIdeal Cert.ReferenceIdeal.Gen Cert.ReferenceIdeal.Read Idealize.ShloMosaic Idealize.ShloMosaic.ValueIdx
open Cert.PowerAttn Cert.Lib.IdealSums Cert.Lib.RowReductions Cert.Lib.BatchRows

local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))

abbrev XF := (⟨S8x2048x64, .f32⟩ : BufTy).Contents (Elt Ideal)
abbrev XI := (⟨S8x2048x1, .i32⟩ : BufTy).Contents (Elt Ideal)

variable (x0 x1 x2 : XF) (x3 x4 : XI)

/-- The reference's scores of query (b, p): the products summed over the 64 features, divided by the literal 8.0. -/
def wRow (b : Fin 8) (p : Fin 2048) : Fin 2048 → EReal :=
  fun k => Ideal.div (∑ d : Fin 64, x0 (ix3 b p d) * x1 (ix3 b k d)) (Ideal.ofBits .f32 0x41000000#32)

/-- The reference's mask of query (b, p): the smaller of the two mask words, as a number. -/
def mRow (b : Fin 8) (p : Fin 2048) : Fin 2048 → EReal :=
  fun k => FloatOps.sitofp (F := Ideal) .f32 (IntOp.minsi (x3 (ix3 b k 0)) (x4 (ix3 b p 0)))

theorem v2_apply (b : Fin 8) (p k : Fin 2048) :
    val_main_v2 (F := Ideal) x0 x1 (ix3 b p k) = wRow x0 x1 b p k := by
  rw [val_main_v2_apply, val_main_v0_apply, val_main_v1_apply, val_main_cst_apply]
  have hl : ∀ d, lidx_main_v0 (ix3 b p k) d = ix3 b p d := fun d => by idx3
  have hr : ∀ d, ridx_main_v0 (ix3 b p k) d = ix3 b k d := fun d => by idx3
  simp only [hl, hr]
  rfl

theorem v7_apply (b : Fin 8) (p k : Fin 2048) :
    val_main_v7 (F := Ideal) x3 x4 (ix3 b p k) = mRow x3 x4 b p k := by
  rw [val_main_v7_apply, val_main_v6_apply, val_main_v4_apply, val_main_v3_apply, val_main_v5_apply]
  have h3 : idx_main_v3 (idx_main_v4 (ix3 b p k)) = ix3 b k 0 := by idx3
  have h5 : idx_main_v5 (ix3 b p k) = ix3 b p 0 := by idx3
  rw [h3, h5]
  rfl

/-- The row maximum the reference subtracts: the running maximum from −∞ over the row of scores. -/
theorem v10_apply (b : Fin 8) (p k : Fin 2048) :
    val_main_v10 (F := Ideal) x0 x1 (ix3 b p k) = (Finset.univ : Finset (Fin 2048)).fold max ⊥ (wRow x0 x1 b p) := by
  rw [val_main_v10_apply, val_main_v9_apply]
  have h : idx_main_v9 (idx_main_v10 (ix3 b p k)) = ix2 b p := by idx2
  rw [h]
  unfold val_main_v8
  rw [host_lastmax3_apply]
  have e1 : (fun l => val_main_v2 (F := Ideal) x0 x1 (ix3 b p l)) = wRow x0 x1 b p :=
    funext fun l => v2_apply x0 x1 b p l
  rw [e1]
  exact congrArg (fun z => Finset.fold max z (wRow x0 x1 b p) Finset.univ) ofBits_neg_inf_f32

/-- The first-stage weights. -/
theorem v13_apply (b : Fin 8) (p k : Fin 2048) :
    val_main_v13 (F := Ideal) x0 x1 x3 x4 (ix3 b p k) = weight (wRow x0 x1 b p) (mRow x3 x4 b p) k := by
  rw [val_main_v13_apply, val_main_v12_apply, val_main_v11_apply, v2_apply, v10_apply, v7_apply]
  rfl

/-- The first normaliser: the sum of the weights plus the literal ε. -/
theorem v18_apply (b : Fin 8) (p k : Fin 2048) :
    val_main_v18 (F := Ideal) x0 x1 x3 x4 (ix3 b p k)
      = (∑ l, weight (wRow x0 x1 b p) (mRow x3 x4 b p) l) + Ideal.ofBits .f32 0x3089705F#32 := by
  rw [val_main_v18_apply, val_main_v17_apply, val_main_v15_apply, val_main_v16_apply, val_main_cst_2_apply]
  have h : idx_main_v15 (idx_main_v18 (ix3 b p k)) = ix2 b p := by idx2
  rw [h, val_main_v14_apply, val_main_cst_1_apply]
  have hs : ∀ l, val_main_v13 (F := Ideal) x0 x1 x3 x4 (idx_main_v14 (ix2 b p) l)
      = weight (wRow x0 x1 b p) (mRow x3 x4 b p) l := fun l => by
    have hi : idx_main_v14 (ix2 b p) l = ix3 b p l := by idx3
    rw [hi, v13_apply]
  simp only [hs]
  show (Ideal.ofBits .f32 0x00000000#32 + _) + Ideal.ofBits .f32 0x3089705F#32 = _
  rw [Ideal.ofBits_zero_f32, zero_add]

/-- The cubes of the first stage. -/
theorem v21_apply (b : Fin 8) (p k : Fin 2048) :
    val_main_v21 (F := Ideal) x0 x1 x3 x4 (ix3 b p k)
      = cube (stage1 (Ideal.ofBits .f32 0x3089705F#32) (wRow x0 x1 b p) (mRow x3 x4 b p) k) := by
  rw [val_main_v21_apply, val_main_v20_apply, val_main_v19_apply, v13_apply, v18_apply]
  rfl

/-- The second normaliser: the sum of the cubes. -/
theorem v24_apply (b : Fin 8) (p k : Fin 2048) :
    val_main_v24 (F := Ideal) x0 x1 x3 x4 (ix3 b p k)
      = ∑ l, cube (stage1 (Ideal.ofBits .f32 0x3089705F#32) (wRow x0 x1 b p) (mRow x3 x4 b p) l) := by
  rw [val_main_v24_apply, val_main_v23_apply]
  have h : idx_main_v23 (idx_main_v24 (ix3 b p k)) = ix2 b p := by idx2
  rw [h, val_main_v22_apply, val_main_cst_3_apply]
  have hs : ∀ l, val_main_v21 (F := Ideal) x0 x1 x3 x4 (idx_main_v22 (ix2 b p) l)
      = cube (stage1 (Ideal.ofBits .f32 0x3089705F#32) (wRow x0 x1 b p) (mRow x3 x4 b p) l) := fun l => by
    have hi : idx_main_v22 (ix2 b p) l = ix3 b p l := by idx3
    rw [hi, v21_apply]
  simp only [hs]
  show Ideal.ofBits .f32 0x00000000#32 + _ = _
  rw [Ideal.ofBits_zero_f32, zero_add]

/-- THE REFERENCE'S ATTENTION MATRIX at (b, p, j): entry j of the two-stage row of query (b, p). -/
theorem t_apply (b : Fin 8) (p j : Fin 2048) :
    val_main_v25 (F := Ideal) x0 x1 x3 x4 (ix3 b p j)
      = powRow (Ideal.ofBits .f32 0x3089705F#32) (wRow x0 x1 b p) (mRow x3 x4 b p) j := by
  rw [val_main_v25_apply, v21_apply, v24_apply]
  rfl

/-- THE REFERENCE'S OUTPUT at (b, p, d): row (b, p) of its attention matrix against column d of the values of batch b. -/
theorem f_apply (b : Fin 8) (p : Fin 2048) (d : Fin 64) :
    val_main_v26 (F := Ideal) x0 x1 x2 x3 x4 (ix3 b p d)
      = ∑ k : Fin 2048, val_main_v25 (F := Ideal) x0 x1 x3 x4 (ix3 b p k) * x2 (ix3 b k d) := by
  rw [val_main_v26_apply]
  refine Finset.sum_congr rfl fun k _ => ?_
  have hl : lidx_main_v26 (ix3 b p d) k = ix3 b p k := by idx3
  have hr : ridx_main_v26 (ix3 b p d) k = ix3 b k d := by idx3
  rw [hl, hr]

/-! ## The two arrangements agree -/

section Agree
variable (hT : ShQM.Transposes [0, 2, 1] ShKM)
variable (hq : ∀ i, IsReal (x0 i)) (hk : ∀ i, IsReal (x1 i))
variable (h3 : ∀ i, x3 i = 0#32 ∨ x3 i = 1#32) (h4 : ∀ i, x4 i = 0#32 ∨ x4 i = 1#32)

include hq hk h3 h4 in
/-- With real queries and keys and mask words 0 or 1, the reference's attention matrix is the specification's, the
    masks read as numbers: the query mask as given, the key mask transposed. -/
theorem t_eq :
    val_main_v25 (F := Ideal) x0 x1 x3 x4
      = attnT x0 x1 (sitofp (F := Ideal) .f32 x4) (sitofp (F := Ideal) .f32 (transpose ShKM [0, 2, 1] x3 hT)) := by
  funext i
  obtain ⟨b, p, j, rfl⟩ : ∃ (b : Fin 8) (p j : Fin 2048), i = ix3 b p j := ⟨i 0, i 1, i 2, eq_ix3 i⟩
  rw [t_apply]
  obtain ⟨ε, hε, he⟩ := ofBits_eps
  have hw : wRow x0 x1 b p
      = fun k => Ideal.div (∑ d : Fin 64, x0 (ix3 b p d) * x1 (ix3 b k d)) ((8 : ℝ) : EReal) := by
    unfold wRow; rw [ofBits_eight]
  have hs : scoreRow x0 x1 b p
      = fun k => (∑ d : Fin 64, x0 (ix3 b p d) * x1 (ix3 b k d)) * ((3 / 8 : ℝ) : EReal) := by
    unfold scoreRow; rw [ofBits_three_eighths]
  have hμ : ∀ k, mRow x3 x4 b p k
        = maskRow (sitofp (F := Ideal) .f32 x4) (sitofp (F := Ideal) .f32 (transpose ShKM [0, 2, 1] x3 hT)) b p k
      ∧ (mRow x3 x4 b p k = 0 ∨ mRow x3 x4 b p k = 1) := fun k => by
    have hm := mask_min (h3 (ix3 b k 0)) (h4 (ix3 b p 0))
    unfold mRow maskRow
    show _ = min (FloatOps.sitofp (F := Ideal) .f32 (x4 (ix3 b p 0)))
        (FloatOps.sitofp (F := Ideal) .f32 (transpose ShKM [0, 2, 1] x3 hT (ix3 b 0 k))) ∧ _
    rw [transpose_mask_apply]
    exact hm
  have hμf : mRow x3 x4 b p
      = maskRow (sitofp (F := Ideal) .f32 x4) (sitofp (F := Ideal) .f32 (transpose ShKM [0, 2, 1] x3 hT)) b p :=
    funext fun k => (hμ k).1
  show _ = softRow (scoreRow x0 x1 b p) (maskRow _ _ b p) j
  rw [he, hw, hs, ← hμf]
  exact powRow_eq_softRow (by norm_num) _ _ (fun k => IsReal.sum _ fun d _ => (hq _).mul (hk _))
    (fun k => (hμ k).2) ε hε j

include hq hk h3 h4 in
/-- and so is its output. -/
theorem f_eq :
    val_main_v26 (F := Ideal) x0 x1 x2 x3 x4
      = attnF x0 x1 x2 (sitofp (F := Ideal) .f32 x4) (sitofp (F := Ideal) .f32 (transpose ShKM [0, 2, 1] x3 hT)) := by
  funext i
  obtain ⟨b, p, d, rfl⟩ : ∃ (b : Fin 8) (p : Fin 2048) (d : Fin 64), i = ix3 b p d := ⟨i 0, i 1, i 2, eq_ix3 i⟩
  rw [f_apply, t_eq x0 x1 x3 x4 hT hq hk h3 h4]
  rfl

end Agree

end Cert.ReferenceIdeal.Rows

end
-- ==== Proof.PreFacts.lean ====
/-
  What the input check says of the arrays, element by element: every query and key entry is a real (its absolute value
  is below +∞), and every mask word is 0 or 1 (it equals 0 or it equals 1). The check is a conjunction of five
  all-reductions; each conjunct gives its element fact at every index.
-/
import proofs.«152501_j80573586473568_1_alg».proof.Pre_finite_inputs
import proofs.«152501_j80573586473568_1_alg».proof.Proof.LibIdealSums
import Idealize.ShloMosaic.Lib.ReduceAll
import Idealize.ShloMosaic.Lib.Affine
import Idealize.ShloMosaic.Lib.ValueIdx

noncomputable section

namespace Cert.Pre_finite_inputs.Decode

open Cert.Pre_finite_inputs Idealize.ShloMosaic Cert.Lib.IdealSums

variable [Cert.Pre_finite_inputs.Facts]

instance : Subsingleton S_.Idx := ⟨fun a b => funext fun d => d.elim0⟩

/-- An equality test of two words that answers 1 says the words are equal. -/
theorem eq_of_cmpi_eq {x y : BitVec 32} (h : IntOp.cmpi .eq x y = 1#1) : x = y := by
  by_contra e
  have hb : (x == y) = false := by simpa using e
  have h' : IntOp.cmpi .eq x y = BitVec.ofBool (x == y) := rfl
  rw [h', hb] at h
  exact absurd h (by decide)

/-- The input check, all ones, gives: the queries and the keys hold reals, and the two masks hold words 0 or 1. -/
theorem decode (a0 a1 a2 : FVec Ideal S8x2048x64 .f32) (a3 a4 : IVec S8x2048x1 32)
    (h : fn (F := Ideal) a0 a1 a2 a3 a4 = fun _ => 1#1) :
    (∀ i, IsReal (a0 i)) ∧ (∀ i, IsReal (a1 i))
      ∧ (∀ i, a3 i = 0#32 ∨ a3 i = 1#32) ∧ (∀ i, a4 i = 0#32 ∨ a4 i = 1#32) := by
  have h0 := congrFun h ValueIdx.ix0
  dsimp only [fn, fn_part1, andi] at h0
  obtain ⟨h20, h26⟩ := IntOp.andi_eq_one.1 h0
  obtain ⟨h13, h19⟩ := IntOp.andi_eq_one.1 h20
  obtain ⟨h8, -⟩ := IntOp.andi_eq_one.1 h13
  obtain ⟨h3, h7⟩ := IntOp.andi_eq_one.1 h8
  refine ⟨fun i => ?_, fun i => ?_, fun i => ?_, fun i => ?_⟩
  · exact isReal_of_cmpf_abs (a0 i) (Host.reduce_andi_all _ _ _ _ _ h3 i)
  · exact isReal_of_cmpf_abs (a1 i) (Host.reduce_andi_all _ _ _ _ _ h7 i)
  · have e := Host.reduce_andi_all _ _ _ _ _ h19 i
    rcases IntOp.ori_eq_one.1 e with e0 | e1
    · exact Or.inl (eq_of_cmpi_eq e0)
    · exact Or.inr (eq_of_cmpi_eq e1)
  · have e := Host.reduce_andi_all _ _ _ _ _ h26 i
    rcases IntOp.ori_eq_one.1 e with e0 | e1
    · exact Or.inl (eq_of_cmpi_eq e0)
    · exact Or.inr (eq_of_cmpi_eq e1)

end Cert.Pre_finite_inputs.Decode

end
-- ==== Proof.lean ====
/- Masked attention with a cubic renormalisation: the kernel's one-stage form against the reference's two-stage form.

   Both programs compute, for every batch b and query p, a row of weights over the 2048 keys and the weighted sum of
   the values. The kernel takes the scores s_j = (q · k_j) · 0.375, weights e_j = exp(s_j − max s) · μ_j with
   μ_j = min(query mask, key mask) and returns e_j / Σ e. The reference takes the scores w_j = (q · k_j) / 8, weights
   a_j = exp(w_j − max w) · μ_j, forms a_j / (Σ a + ε), cubes it and divides the cubes by their sum. On real scores and
   masks that are 0 or 1 the two rows are one function of the inputs: 0.375 = 3/8, so s = 3w and exp(s_j − max s) is the
   cube of exp(w_j − max w); μ_j³ = μ_j; and the common positive factor (Σ a + ε)³ leaves every quotient unchanged,
   the quotient by a zero sum (a row masked out entirely) included. The input check supplies exactly what this uses:
   queries and keys are finite, and every mask word is 0 or 1.

   The modules: PowerSoftmax (the law on one row), AttnSpec (the two results as whole-array functions, the literals,
   the masks), KernelBlock and KernelArray (the kernel's stores, then its result arrays, are those functions),
   RefRows (the reference's results are those functions), PreFacts (what the input check gives), and the three frames
   from the generated frame proofs and the reference's generated run. -/
import proofs.«152501_j80573586473568_1_alg».proof.Defs
import proofs.«152501_j80573586473568_1_alg».proof.Proof.Gen.Kernel
import proofs.«152501_j80573586473568_1_alg».proof.Proof.Gen.Kernel.Frame
import proofs.«152501_j80573586473568_1_alg».proof.Proof.Gen.KernelIdeal
import proofs.«152501_j80573586473568_1_alg».proof.Proof.Gen.KernelIdeal.Frame
import proofs.«152501_j80573586473568_1_alg».proof.Proof.Gen.KernelIdeal.Value
import proofs.«152501_j80573586473568_1_alg».proof.Proof.Gen.ReferenceIdeal
import proofs.«152501_j80573586473568_1_alg».proof.Proof.Gen.ReferenceIdeal.Run
import proofs.«152501_j80573586473568_1_alg».proof.Proof.Gen.ReferenceIdeal.Read
import proofs.«152501_j80573586473568_1_alg».proof.Proof.Gen.Pre_finite_inputs
import proofs.«152501_j80573586473568_1_alg».proof.Proof.KernelArray
import proofs.«152501_j80573586473568_1_alg».proof.Proof.RefRows
import proofs.«152501_j80573586473568_1_alg».proof.Proof.PreFacts
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does the kernel read on the extended reals. -/
theorem frame_ki : Cert.frame_KernelIdeal := fun m ρ _ => Cert.KernelIdeal.Gen.frame m ρ

/-- The reference runs and leaves its arguments unchanged: its run read back, the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- From arguments that agree and pass the input check, the kernel's output and attention matrix and the reference's
    are the same whole-array functions of the arguments. -/
theorem algebraic : Cert.algebraic_KernelIdeal_ReferenceIdeal := by
  intro m ρ m' ρ' hpre hagree
  refine ⟨fun c => Cert.KernelIdeal.Array.Om m c, fun c => Cert.KernelIdeal.Array.Tm m c,
    Cert.KernelIdeal.Array.run m ρ, ?_⟩
  refine (θ_run Cert.ReferenceIdeal.defs _ _).mono (fun _ h c => ?_) (Cert.ReferenceIdeal.Value.run (F := Ideal) m' ρ')
  obtain ⟨hq, hk, h3, h4⟩ := Cert.Pre_finite_inputs.Decode.decode _ _ _ _ _ (hpre c)
  obtain ⟨e0, e1, e2, e3, e4⟩ := hagree c
  refine ⟨(h c).1.trans ?_, (h c).2.1.trans ?_, (h c).2.2⟩
  · rw [Cert.ReferenceIdeal.Read.val_main_v26_eq, e0, e1, e2, e3, e4]
    exact Cert.ReferenceIdeal.Rows.f_eq _ _ _ _ _ _ hq hk h3 h4
  · rw [Cert.ReferenceIdeal.Read.val_main_v25_eq, e0, e1, e3, e4]
    exact Cert.ReferenceIdeal.Rows.t_eq _ _ _ _ _ hq hk h3 h4

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
